-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S64x3 .f32) (main_arg6 : FVec F S64x3 .f32) (main_arg7 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x3 .f32 := Host.absf main_arg5
  let main_cst_6 : FVec F S_ .f32 := constant S_ .f32 0x7F800000#32
  let main_v20 : FVec F S64x3 .f32 := broadcastInDim S64x3 ![] bcast_S_S64x3 main_cst_6
  let main_v21 : IVec S64x3 1 := cmpf .olt main_v19 main_v20
  let main_c_7 : IVec S_ 1 := constantI S_ 1 1#1
  let main_v22 : IVec S_ 1 := (fun x v => Host.reduce IntOp.andi x v reducesTo_S64x3_S_d0_1 h_S_) main_v21 main_c_7
  let main_v23 : IVec S_ 1 := andi main_v18 main_v22
  let main_v24 : FVec F S64x3 .f32 := Host.absf main_arg6
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x64 .f32) (main_arg3 : FVec F S128x64 .f32) (main_arg4 : FVec F S64 .f32) (main_arg5 : FVec F S64x3 .f32) (main_arg6 : FVec F S64x3 .f32) (main_arg7 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S600000x64 : Shape := ⟨2, ![600000, 64]⟩
abbrev S1x64 : Shape := ⟨2, ![1, 64]⟩
abbrev S100000x3 : Shape := ⟨2, ![100000, 3]⟩
abbrev S5000x1 : Shape := ⟨2, ![5000, 1]⟩
abbrev S5000x3 : Shape := ⟨2, ![5000, 3]⟩
abbrev S600000x3 : Shape := ⟨2, ![600000, 3]⟩
abbrev S1x3 : Shape := ⟨2, ![1, 3]⟩
abbrev S5000 : Shape := ⟨1, ![5000]⟩

abbrev nBuf : Space → Nat
  | .hbm => 58
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x3, .f32⟩
  | .hbm, ⟨6, _⟩ => ⟨S64x3, .f32⟩
  | .hbm, ⟨7, _⟩ => ⟨S3, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x64, .f32⟩
  | .hbm, ⟨26, _⟩ => ⟨S100000x64, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x64, .f32⟩
  | .hbm, ⟨36, _⟩ => ⟨S_, .f32⟩
  | .hbm, ⟨37, _⟩ => ⟨S100000x64, .f32⟩
  | .hbm, ⟨38, _⟩ => ⟨S600000x1, .i32⟩
  | .hbm, ⟨39, _⟩ => ⟨S100000x64, .f32⟩
  | .hbm, ⟨40, _⟩ => ⟨S1x64, .f32⟩
  | .hbm, ⟨41, _⟩ => ⟨S100000x3, .f32⟩
  | .hbm, ⟨42, _⟩ => ⟨S100000x3, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x3, .f32⟩
  | .hbm, ⟨52, _⟩ => ⟨S_, .f32⟩
  | .hbm, ⟨53, _⟩ => ⟨S100000x3, .f32⟩
  | .hbm, ⟨54, _⟩ => ⟨S600000x1, .i32⟩
  | .hbm, ⟨55, _⟩ => ⟨S100000x3, .f32⟩
  | .hbm, ⟨56, _⟩ => ⟨S1x3, .f32⟩
  | .hbm, ⟨57, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S128x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S1x64, .f32⟩
  | .local _ .vmem, ⟨15, _⟩ => ⟨S64x3, .f32⟩
  | .local _ .vmem, ⟨16, _⟩ => ⟨S64x3, .f32⟩
  | .local _ .vmem, ⟨17, _⟩ => ⟨S5000x3, .f32⟩
  | .local _ .vmem, ⟨18, _⟩ => ⟨S5000x3, .f32⟩
  | .local _ .vmem, ⟨19, _⟩ => ⟨S5000x3, .f32⟩
  | .local _ .vmem, ⟨20, _⟩ => ⟨S5000x3, .f32⟩
  | .local _ .vmem, ⟨21, _⟩ => ⟨S5000x3, .f32⟩
  | .local _ .vmem, ⟨22, _⟩ => ⟨S5000x3, .f32⟩
  | .local _ .vmem, ⟨23, _⟩ => ⟨S5000x3, .f32⟩
  | .local _ .vmem, ⟨24, _⟩ => ⟨S5000x3, .f32⟩
  | .local _ .vmem, ⟨25, _⟩ => ⟨S5000x1, .f32⟩
  | .local _ .vmem, ⟨26, _⟩ => ⟨S5000x1, .f32⟩
  | .local _ .vmem, ⟨27, _⟩ => ⟨S1x3, .f32⟩
  | .local _ .vmem, ⟨28, _⟩ => ⟨S5000x3, .f32⟩
  | .local _ .vmem, ⟨29, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x3 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x3_S64x3_0_0 : ∀ a, (![0, 0] : Fin 2 → Nat) a + S64x3.size a ≤ S64x3.size a
  h_S64x3 : 0 < S64x3.numel
  inb_S5000x3_S5000x3_0_0 : ∀ a, (![0, 0] : Fin 2 → Nat) a + S5000x3.size a ≤ S5000x3.size a
  h_S5000x3 : 0 < S5000x3.numel
  bcast_S_S100000x3 : S_.BroadcastsInDim S100000x3 (![] : Fin 0 → Fin S100000x3.rank)
  shapeCasts_S3_S1x3 : S3.ShapeCasts S1x3
  shapeCasts_S5000x3_S5000x3 : S5000x3.ShapeCasts S5000x3
  broadcasts_S5000x1_S5000x3 : S5000x1.Broadcasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  reduces_S5000x3_S5000 : S5000x3.Reduces [1] S5000
  shapeCasts_S5000_S5000x1 : S5000.ShapeCasts S5000x1
  scatter_S100000_S600000x1_S600000_n_0_0_1_wf : ScatterDims.WF S100000 S600000x1 S600000 [] [0] [0] 1
  dot_S5000x128_S128x64_S5000x64_1_0_0_1_n_n_wf : DotDims.WF S5000x128 S128x64 S5000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S5000x64_S64x3_S5000x3_1_0_0_1_n_n_wf : DotDims.WF S5000x64 S64x3 S5000x3 [1] [0] [0] [1] [] []
  gather_S100000x3_S600000x1_S600000x3_1_0_n_n_0_1_13_wf : GatherDims.WF S100000x3 S600000x1 S600000x3 [1] [0] [] [0] [] 1 ![1, 3]
  scatter_S100000x3_S600000x1_S600000x3_1_0_0_1_wf : ScatterDims.WF S100000x3 S600000x1 S600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x3.size a ≤ S64x3.size a
  hwx1_4 : ∀ i : grid1.Coords, EltTy.bits .f32 = 32 ∨ (Rect.block (s := S64x3) S64x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x3.size a ≤ S64x3.size a
  hwx1_5 : ∀ i : grid1.Coords, EltTy.bits .f32 = 32 ∨ (Rect.block (s := S64x3) S64x3.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x3.size a ≤ S100000x3.size a
  hwx1_6 : ∀ i : grid1.Coords, EltTy.bits .f32 = 32 ∨ (Rect.block (s := S100000x3) S5000x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x3.size a ≤ S100000x3.size a
  hwx1_7 : ∀ i : grid1.Coords, EltTy.bits .f32 = 32 ∨ (Rect.block (s := S100000x3) S5000x3.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x3.size a ≤ S100000x3.size a
  hwx2_0 : ∀ i : grid2.Coords, EltTy.bits .f32 = 32 ∨ (Rect.block (s := S100000x3) S5000x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x3.size a ≤ S100000x3.size a
  hwx2_1 : ∀ i : grid2.Coords, EltTy.bits .f32 = 32 ∨ (Rect.block (s := S100000x3) S5000x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x3.size a ≤ S1x3.size a
  hwx2_3 : ∀ i : grid2.Coords, EltTy.bits .f32 = 32 ∨ (Rect.block (s := S1x3) S1x3.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x3.size a ≤ S100000x3.size a
  hwx2_4 : ∀ i : grid2.Coords, EltTy.bits .f32 = 32 ∨ (Rect.block (s := S100000x3) S5000x3.size (cc2_transform_4 i) (hinb2_4 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf
def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25_0) S5000x3.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v25_1) S5000x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v35) S5000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25_1) S5000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S5000x3.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S600000x64 : Shape := ⟨2, ![600000, 64]⟩
abbrev S100000x3 : Shape := ⟨2, ![100000, 3]⟩
abbrev S1x3 : Shape := ⟨2, ![1, 3]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x3, .f32⟩
  | .hbm, ⟨6, _⟩ => ⟨S64x3, .f32⟩
  | .hbm, ⟨7, _⟩ => ⟨S3, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x64, .f32⟩
  | .hbm, ⟨55, _⟩ => ⟨S_, .f32⟩
  | .hbm, ⟨56, _⟩ => ⟨S100000x64, .f32⟩
  | .hbm, ⟨57, _⟩ => ⟨S600000x1, .i32⟩
  | .hbm, ⟨58, _⟩ => ⟨S100000x64, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S100000, .f32⟩
  | .hbm, ⟨63, _⟩ => ⟨S600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x3, .f32⟩
  | .hbm, ⟨72, _⟩ => ⟨S100000x3, .f32⟩
  | .hbm, ⟨73, _⟩ => ⟨S100000x3, .f32⟩
  | .hbm, ⟨74, _⟩ => ⟨S1x3, .f32⟩
  | .hbm, ⟨75, _⟩ => ⟨S100000x3, .f32⟩
  | .hbm, ⟨76, _⟩ => ⟨S100000x3, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x3, .f32⟩
  | .hbm, ⟨84, _⟩ => ⟨S100000x3, .f32⟩
  | .hbm, ⟨85, _⟩ => ⟨S100000x3, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x3, .f32⟩
  | .hbm, ⟨91, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000x1_S100000x3_0_1 : S100000x1.BroadcastsInDim S100000x3 (![0, 1] : Fin 2 → Fin S100000x3.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S100000x64_S64x3_S100000x3_1_0_0_1_n_n_wf : DotDims.WF S100000x64 S64x3 S100000x3 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KRun.lean ====
/-
  The kernel program's run with its result named: every weakly fair execution of the program terminates, nothing
  faulting, the eight arguments end as launched, and the result array ends at the contents the last segment
  boundary of the run assigns to it (the fold of the host stretches and the three pallas_calls' write-backs from the
  launch memory).  The launch over the six segments is the frame's; here the final state is read at one more buffer.
-/
import proofs.«143181_j4569845203115_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, with the result array read off the last boundary's contents. -/
theorem run_result : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Gen

end
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.LibRowOps.lean ====
/-
  Row gather and row scatter-add read at an index.

  `x[idx]` of a matrix `x : [N, D]` at a column of row numbers `idx : [E, 1]` lowers to a `stablehlo.gather` with
  offset_dims `[1]`, collapsed_slice_dims `[0]`, start_index_map `[0]`, index_vector_dim `1`, slice_sizes `[1, D]`:
  result element `(e, k)` is `x` at row `idx[e, 0]` (read signed, clamped into `[0, N − 1]`) and column `k`.
  `segment_sum` of rows `upd : [E, D]` by row numbers `idx : [E, 1]` lowers to a `stablehlo.scatter` with an `add`
  body, update_window_dims `[1]`, inserted_window_dims `[0]`, scatter_dims_to_operand_dims `[0]`, index_vector_dim `1`:
  at the extended reals, result element `(n, k)` is the operand's element plus the sum of `upd (e, k)` over the rows
  `e` whose row number (read signed, not clamped) is `n`; a row whose number is outside `[0, N)` is dropped.
  Both facts are stated for every `N`, `E`, `D`, so that one row selection serves every width `D`.
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The row gather -/

section Gather
variable {α : Type}

/-- The row gather's dimension numbers for an operand `[N, D]`, start indices `[E, 1]` and result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: read signed, clamped into `[0, N − 1]`. -/
def clampRow {N w : Nat} (hN : 0 < N) (v : BitVec w) : Fin N := ⟨min v.toInt.toNat (N - 1), by omega⟩

/-- THE ROW GATHER READ AT `(e, k)`: the operand at the clamped row `idx[e, 0]`, column `k`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N E D wf) x idx (ix2 e k) = x (ix2 (clampRow hN (idx (ix2 e 0))) k) := by
  unfold Host.gather
  refine congrArg x ?_
  funext a
  match a with
  | ⟨0, _⟩ =>
    refine Fin.ext ?_
    show (rowGatherDims N E D wf).start (ix2 e k) idx 0 + (rowGatherDims N E D wf).batchCoord (ix2 e k) 0
      + (rowGatherDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e k) ⟨List.idxOf (0 : Fin 2) (rowGatherDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    refine Fin.ext ?_
    show (rowGatherDims N E D wf).start (ix2 e k) idx 1 + (rowGatherDims N E D wf).batchCoord (ix2 e k) 1
      + (rowGatherDims N E D wf).offCoord (ix2 e k) 1 = k.val
    rw [GatherDims.batchCoord_eq_zero _ _ _ List.not_mem_nil]
    have hs : (rowGatherDims N E D wf).start (ix2 e k) idx 1 = 0 := by
      unfold GatherDims.start
      rw [dif_neg (show ¬ (1 : Fin 2) ∈ (rowGatherDims N E D wf).startIndexMap from
        (show ¬ (1 : Fin 2) ∈ ([0] : List (Fin 2)) from by decide))]
    have ho : (rowGatherDims N E D wf).offCoord (ix2 e k) 1 = k.val := by
      unfold GatherDims.offCoord
      rw [dif_pos (show (1 : Fin 2) ∈ (rowGatherDims N E D wf).sKept from
        (show (1 : Fin 2) ∈ ([1] : List (Fin 2)) from by decide))]
      rfl
    rw [hs, ho]; omega

end Gather

/-! ## The row scatter-add -/

section Scatter

/-- The row scatter's dimension numbers for an operand `[N, D]`, scatter indices `[E, 1]` and updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem rowScatter_pos0 (idx : IVec ⟨2, ![E, 1]⟩ w) (e : Fin E) (k : Fin D) :
    (rowScatterDims N E D wf).start (ix2 e k) idx 0 + (rowScatterDims N E D wf).window (ix2 e k) 0
      = (idx (ix2 e 0)).toInt := by
  have hw : (rowScatterDims N E D wf).window (ix2 e k) 0 = 0 := by
    unfold ScatterDims.window
    rw [dif_neg (show ¬ (0 : Fin 2) ∈ (rowScatterDims N E D wf).sKept from
      (show ¬ (0 : Fin 2) ∈ ([1] : List (Fin 2)) from by decide))]
  have hs : (rowScatterDims N E D wf).start (ix2 e k) idx 0 = (idx (ix2 e 0)).toInt := by
    unfold ScatterDims.start
    rw [dif_pos (show (0 : Fin 2) ∈ (rowScatterDims N E D wf).scatterDimsToOperandDims from List.mem_singleton.mpr rfl)]
    have hsi : (rowScatterDims N E D wf).siIdx (ix2 e k) ⟨List.idxOf (0 : Fin 2) (rowScatterDims N E D wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  rw [hw, hs]; simp

theorem rowScatter_pos1 (idx : IVec ⟨2, ![E, 1]⟩ w) (e : Fin E) (k : Fin D) :
    (rowScatterDims N E D wf).start (ix2 e k) idx 1 + (rowScatterDims N E D wf).window (ix2 e k) 1
      = (k.val : Int) := by
  have hw : (rowScatterDims N E D wf).window (ix2 e k) 1 = k.val := by
    unfold ScatterDims.window
    rw [dif_pos (show (1 : Fin 2) ∈ (rowScatterDims N E D wf).sKept from
      (show (1 : Fin 2) ∈ ([1] : List (Fin 2)) from by decide))]
    rfl
  have hs : (rowScatterDims N E D wf).start (ix2 e k) idx 1 = 0 := by
    unfold ScatterDims.start
    rw [dif_neg (show ¬ (1 : Fin 2) ∈ (rowScatterDims N E D wf).scatterDimsToOperandDims from
      (show ¬ (1 : Fin 2) ∈ ([0] : List (Fin 2)) from by decide))]
  rw [hw, hs]; simp

/-- Update `(e, k)` lands on operand element `(n, k')` exactly when row `e`'s number is `n` and the columns agree. -/
theorem rowScatter_resultIdx_iff (idx : IVec ⟨2, ![E, 1]⟩ w) (e : Fin E) (k : Fin D) (n : Fin N) (k' : Fin D) :
    (rowScatterDims N E D wf).resultIdx? (ix2 e k) idx = some (ix2 n k')
      ↔ (idx (ix2 e 0)).toInt = (n.val : Int) ∧ k = k' := by
  have h0 := rowScatter_pos0 wf idx e k
  have h1 := rowScatter_pos1 wf idx e k
  unfold ScatterDims.resultIdx?
  split
  · rename_i h
    constructor
    · intro hh
      have hf := Option.some.inj hh
      have e0 : ((rowScatterDims N E D wf).start (ix2 e k) idx 0 + (rowScatterDims N E D wf).window (ix2 e k) 0).toNat = n.val :=
        congrArg (fun f => (f 0).val) hf
      have e1 : ((rowScatterDims N E D wf).start (ix2 e k) idx 1 + (rowScatterDims N E D wf).window (ix2 e k) 1).toNat = k'.val :=
        congrArg (fun f => (f 1).val) hf
      have p0 := (h 0).1
      have p1 := (h 1).1
      refine ⟨?_, Fin.ext ?_⟩
      · rw [← h0]; omega
      · have : ((k.val : Int)) = (k'.val : Int) := by rw [← h1]; omega
        exact_mod_cast this
    · rintro ⟨hr, rfl⟩
      refine congrArg some ?_
      funext a
      match a with
      | ⟨0, _⟩ => refine Fin.ext ?_; show ((rowScatterDims N E D wf).start (ix2 e k) idx 0 + (rowScatterDims N E D wf).window (ix2 e k) 0).toNat = n.val; rw [h0, hr]; simp
      | ⟨1, _⟩ => refine Fin.ext ?_; show ((rowScatterDims N E D wf).start (ix2 e k) idx 1 + (rowScatterDims N E D wf).window (ix2 e k) 1).toNat = k.val; rw [h1]; simp
  · rename_i h
    constructor
    · intro hh; exact absurd hh (by simp)
    · rintro ⟨hr, rfl⟩
      exfalso; apply h
      intro a
      match a with
      | ⟨0, _⟩ =>
        show 0 ≤ (rowScatterDims N E D wf).start (ix2 e k) idx 0 + (rowScatterDims N E D wf).window (ix2 e k) 0 ∧
          (rowScatterDims N E D wf).start (ix2 e k) idx 0 + (rowScatterDims N E D wf).window (ix2 e k) 0 < (N : Int)
        rw [h0, hr]; exact ⟨Int.natCast_nonneg _, by exact_mod_cast n.isLt⟩
      | ⟨1, _⟩ =>
        show 0 ≤ (rowScatterDims N E D wf).start (ix2 e k) idx 1 + (rowScatterDims N E D wf).window (ix2 e k) 1 ∧
          (rowScatterDims N E D wf).start (ix2 e k) idx 1 + (rowScatterDims N E D wf).window (ix2 e k) 1 < (D : Int)
        rw [h1]; exact ⟨Int.natCast_nonneg _, by exact_mod_cast k.isLt⟩

/-- THE ROW SCATTER-ADD READ AT `(n, k)`, at the extended reals: the operand's element plus the sum of column `k` of the
    update rows whose row number is `n`. -/
theorem rowScatterAdd_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowScatterDims N E D wf) x idx upd (ix2 n k)
      = x (ix2 n k) + ∑ e ∈ Finset.univ.filter (fun e : Fin E => (idx (ix2 e 0)).toInt = (n.val : Int)), upd (ix2 e k) := by
  unfold Ideal.hostScatterAdd
  refine congrArg (x (ix2 n k) + ·) ?_
  rw [Finset.sum_filter, sum_idx2, Finset.sum_filter]
  refine Finset.sum_congr rfl fun e _ => ?_
  simp only [rowScatter_resultIdx_iff wf idx e _ n k]
  by_cases hr : (idx (ix2 e 0)).toInt = (n.val : Int)
  · simp only [hr, true_and, if_true]
    rw [Finset.sum_ite_eq' Finset.univ k fun b => upd (ix2 e b)]
    simp
  · simp only [hr, false_and, if_false, Finset.sum_const_zero]

end Scatter

end Idealize.ShloMosaic.RowOps

end
-- ==== Proof.SageAlgebra.lean ====
/-
  The algebra of one mean-aggregation layer, on the extended reals.

  A layer takes node features `h`, sums the features of a node's in-neighbours, divides by the (clamped) in-degree
  `c` and multiplies by a weight matrix.  One program multiplies by the weight matrix FIRST and aggregates the
  narrower products, then scales by `1 / c`; the other aggregates, divides by `c`, and multiplies last.  On the
  extended reals the two agree when every feature and weight is a real number and `c` is a nonzero real:
  both are then the real number `(∑ₑ ∑ₖ h(e,k)·W(k)) / c`, by exchanging the two finite sums and moving the
  constant factor `1 / c` across them (a move that infinities would forbid).
-/
import Idealize.ShloMosaic.PureOps.Ideal

noncomputable section

open scoped BigOperators

namespace Cert.Sage

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.one : IsReal (1 : EReal) := ⟨1, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.max {x y : EReal} : IsReal x → IsReal y → IsReal (max x y) := by
  rintro ⟨a, rfl⟩ ⟨b, rfl⟩
  rcases le_total a b with h | h
  · exact ⟨b, max_eq_right (EReal.coe_le_coe_iff.mpr h)⟩
  · exact ⟨a, max_eq_left (EReal.coe_le_coe_iff.mpr h)⟩
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonzero real: what the clamped in-degree is. -/
def IsNZReal (c : EReal) : Prop := ∃ r : ℝ, r ≠ 0 ∧ c = (r : EReal)

theorem IsReal.div {x c : EReal} : IsReal x → IsNZReal c → IsReal (Ideal.div x c) := by
  rintro ⟨a, rfl⟩ ⟨r, hr, rfl⟩
  rw [Ideal.div_coe hr]
  exact ⟨a * (1 / r), (EReal.coe_mul _ _).symm⟩

/-- THE LAW: aggregating the projected features and scaling by `1 / c` is projecting the aggregated features divided
    by `c`.  `x e k` is feature `k` of the source node of edge `e`, `A` the edges into the node, `W k` one column
    of the weight matrix. -/
theorem agg_project_comm {E K : Type*} [Fintype K] (A : Finset E) (x : E → K → EReal) (W : K → EReal) (c : EReal)
    (hx : ∀ e k, IsReal (x e k)) (hW : ∀ k, IsReal (W k)) (hc : IsNZReal c) :
    (∑ e ∈ A, ∑ k, x e k * W k) * Ideal.div 1 c = ∑ k, Ideal.div (∑ e ∈ A, x e k) c * W k := by
  choose x' hx' using hx
  choose W' hW' using hW
  obtain ⟨r, hr, rfl⟩ := hc
  simp only [hx', hW', Ideal.div_coe hr, one_mul, ← EReal.coe_mul, ← coe_sum]
  refine congrArg _ ?_
  rw [Finset.sum_comm, Finset.sum_mul]
  refine Finset.sum_congr rfl fun k _ => ?_
  rw [← Finset.sum_mul]; ring

/-- The aggregated, scaled projection of real features is a real number. -/
theorem agg_project_isReal {E K : Type*} [Fintype K] (A : Finset E) (x : E → K → EReal) (W : K → EReal) (c : EReal)
    (hx : ∀ e k, IsReal (x e k)) (hW : ∀ k, IsReal (W k)) (hc : IsNZReal c) :
    IsReal ((∑ e ∈ A, ∑ k, x e k * W k) * Ideal.div 1 c) :=
  ((IsReal.sum _ _ fun e _ => IsReal.sum _ _ fun k _ => (hx e k).mul (hW k))).mul (IsReal.one.div hc)

end Cert.Sage

end
-- ==== Proof.SageSpec.lean ====
/-
  The two-layer mean-aggregation network as ONE function of its inputs, on the extended reals, in the two arrangements
  the programs compute it in, and that the arrangements agree on real inputs.

  Nodes `n < 100000`, edges `e < 600000`.  Edge `e` goes from node `srcRow e` (its source number, clamped into range)
  to the node whose number is the destination number of `e` (an edge whose destination number is out of range goes
  nowhere).  A layer with features `h`, weights `Wl`, `Wr`, bias `b` and clamped in-degree `c` produces, at node `n` and
  output column `j`,   (∑ over edges e into n, over k of h(src e, k)·Wl(k, j)) / c(n)  +  ∑ₖ h(n, k)·Wr(k, j)  +  b(j).
  `kPre` projects through `Wl` first, aggregates the narrower products and scales by `1 / c`; `rPre` aggregates,
  divides by `c`, and projects last.  They are equal when the features and `Wl` are real and `c` is a nonzero real
  (`kPre_eq_rPre`, from `agg_project_comm`).  The network is a layer, a `max · 0`, a second layer, and a row-wise
  log-softmax (`lsm`: subtract the row's maximum, then the logarithm of the sum of the exponentials).
-/
import Idealize.ShloMosaic.PureOps.Ideal.Laws
import Idealize.ShloMosaic.Lib.ValueIdx
import proofs.«143181_j4569845203115_2_alg».proof.Proof.LibRowOps
import proofs.«143181_j4569845203115_2_alg».proof.Proof.SageAlgebra

noncomputable section

open scoped BigOperators

namespace Cert.Sage

open Idealize.ShloMosaic Idealize.ShloMosaic.ValueIdx Idealize.ShloMosaic.RowOps

/-- An `a × b` matrix of extended reals. -/
abbrev Mat (a b : Nat) : Type := (⟨2, ![a, b]⟩ : Shape).Idx → EReal
/-- A column of 600000 row numbers. -/
abbrev IdxCol : Type := IVec ⟨2, ![600000, 1]⟩ 32

/-- The matrix product. -/
def mm {a k b : Nat} (l : Mat a k) (r : Mat k b) : Mat a b :=
  fun i => ∑ q : Fin k, l (ix2 (i 0) q) * r (ix2 q (i 1))

/-- The edges into node `n`: those whose destination number, read signed, is `n`. -/
def inEdges (dst : IdxCol) (n : Fin 100000) : Finset (Fin 600000) :=
  Finset.univ.filter fun e => (dst (ix2 e 0)).toInt = (n.val : Int)

/-- The source node of edge `e`: its source number read signed and clamped into `[0, 99999]`. -/
def srcRow (src : IdxCol) (e : Fin 600000) : Fin 100000 := clampRow (by decide) (src (ix2 e 0))

/-- The sum, over the edges into a node, of the features of their sources. -/
def agg {d : Nat} (src dst : IdxCol) (h : Mat 100000 d) : Mat 100000 d :=
  fun i => ∑ e ∈ inEdges dst (i 0), h (ix2 (srcRow src e) (i 1))

/-- A layer before its nonlinearity, projecting first. -/
def kPre {a b : Nat} (src dst : IdxCol) (c : Fin 100000 → EReal) (h : Mat 100000 a) (Wl Wr : Mat a b)
    (bias : Fin b → EReal) : Mat 100000 b :=
  fun i => agg src dst (mm h Wl) i * Ideal.div 1 (c (i 0)) + mm h Wr i + bias (i 1)

/-- A layer before its nonlinearity, aggregating first. -/
def rPre {a b : Nat} (src dst : IdxCol) (c : Fin 100000 → EReal) (h : Mat 100000 a) (Wl Wr : Mat a b)
    (bias : Fin b → EReal) : Mat 100000 b :=
  fun i => mm (fun j => Ideal.div (agg src dst h j) (c (j 0))) Wl i + mm h Wr i + bias (i 1)

/-- `max · 0`, entry by entry. -/
def relu {a b : Nat} (h : Mat a b) : Mat a b := fun i => max (h i) 0

/-- A row's maximum, folded from the pattern of `-∞`. -/
def rowMax {a : Nat} (o : Mat a 3) (n : Fin a) : EReal :=
  (Finset.univ : Finset (Fin 3)).fold max (Ideal.ofBits .f32 0xFF800000#32) (fun j => o (ix2 n j))

/-- The row-wise log-softmax. -/
def lsm {a : Nat} (o : Mat a 3) : Mat a 3 :=
  fun i => (o i - rowMax o (i 0)) - Ideal.log (∑ j : Fin 3, Ideal.exp (o (ix2 (i 0) j) - rowMax o (i 0)))

/-- THE NETWORK, each layer aggregating first. -/
def result (x : Mat 100000 128) (src dst : IdxCol) (c : Fin 100000 → EReal) (Wl1 Wr1 : Mat 128 64) (b1 : Fin 64 → EReal)
    (Wl2 Wr2 : Mat 64 3) (b2 : Fin 3 → EReal) : Mat 100000 3 :=
  lsm (rPre src dst c (relu (rPre src dst c x Wl1 Wr1 b1)) Wl2 Wr2 b2)

/-- The pattern of `1.0` denotes `1`. -/
theorem ofBits_one : Ideal.ofBits .f32 0x3F800000#32 = 1 := by
  simp [Ideal.ofBits, Ideal.ieee, -EReal.coe_mul]; norm_num

/-- The two arrangements of a layer agree on real features and weights. -/
theorem kPre_eq_rPre {a b : Nat} (src dst : IdxCol) (c : Fin 100000 → EReal) (h : Mat 100000 a) (Wl Wr : Mat a b)
    (bias : Fin b → EReal) (hh : ∀ i, IsReal (h i)) (hW : ∀ i, IsReal (Wl i)) (hc : ∀ n, IsNZReal (c n)) :
    kPre src dst c h Wl Wr bias = rPre src dst c h Wl Wr bias := by
  funext i
  have key : agg src dst (mm h Wl) i * Ideal.div 1 (c (i 0))
      = mm (fun j => Ideal.div (agg src dst h j) (c (j 0))) Wl i :=
    agg_project_comm (inEdges dst (i 0)) (fun e q => h (ix2 (srcRow src e) q)) (fun q => Wl (ix2 q (i 1))) (c (i 0))
      (fun e q => hh _) (fun q => hW _) (hc _)
  unfold kPre rPre
  rw [key]

/-- A layer of real inputs is real. -/
theorem kPre_isReal {a b : Nat} (src dst : IdxCol) (c : Fin 100000 → EReal) (h : Mat 100000 a) (Wl Wr : Mat a b)
    (bias : Fin b → EReal) (hh : ∀ i, IsReal (h i)) (hWl : ∀ i, IsReal (Wl i)) (hWr : ∀ i, IsReal (Wr i))
    (hb : ∀ k, IsReal (bias k)) (hc : ∀ n, IsNZReal (c n)) (i : (⟨2, ![100000, b]⟩ : Shape).Idx) :
    IsReal (kPre src dst c h Wl Wr bias i) :=
  ((agg_project_isReal (inEdges dst (i 0)) (fun e q => h (ix2 (srcRow src e) q)) (fun q => Wl (ix2 q (i 1))) (c (i 0))
      (fun e q => hh _) (fun q => hWl _) (hc _)).add
    (IsReal.sum _ _ fun q _ => (hh _).mul (hWr _))).add (hb _)

theorem relu_isReal {a b : Nat} (h : Mat a b) (hh : ∀ i, IsReal (h i)) (i : (⟨2, ![a, b]⟩ : Shape).Idx) : IsReal (relu h i) :=
  (hh i).max IsReal.zero

/-- THE NETWORK projecting first in each layer is the network aggregating first, on real inputs. -/
theorem kernel_arrangement_eq (x : Mat 100000 128) (src dst : IdxCol) (c : Fin 100000 → EReal) (Wl1 Wr1 : Mat 128 64)
    (b1 : Fin 64 → EReal) (Wl2 Wr2 : Mat 64 3) (b2 : Fin 3 → EReal)
    (hx : ∀ i, IsReal (x i)) (hWl1 : ∀ i, IsReal (Wl1 i)) (hWr1 : ∀ i, IsReal (Wr1 i)) (hb1 : ∀ k, IsReal (b1 k))
    (hWl2 : ∀ i, IsReal (Wl2 i)) (hc : ∀ n, IsNZReal (c n)) :
    lsm (kPre src dst c (relu (kPre src dst c x Wl1 Wr1 b1)) Wl2 Wr2 b2) = result x src dst c Wl1 Wr1 b1 Wl2 Wr2 b2 := by
  unfold result
  rw [kPre_eq_rPre src dst c (relu (kPre src dst c x Wl1 Wr1 b1)) Wl2 Wr2 b2
      (relu_isReal _ (kPre_isReal src dst c x Wl1 Wr1 b1 hx hWl1 hWr1 hb1 hc)) hWl2 hc,
    kPre_eq_rPre src dst c x Wl1 Wr1 b1 hx hWl1 hc]

/-- A real number clamped below by `1` is a nonzero real. -/
theorem isNZReal_max_one {y : EReal} (hy : IsReal y) : IsNZReal (max y 1) := by
  obtain ⟨r, rfl⟩ := hy
  rcases le_total r 1 with h | h
  · exact ⟨1, one_ne_zero, max_eq_right (by exact_mod_cast h)⟩
  · exact ⟨r, by linarith, max_eq_left (by exact_mod_cast h)⟩

/-- A scatter-add of real updates into real entries is real. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

/-- The row maximum absorbs one more `max` with its own starting value. -/
theorem max_init_rowMax {a : Nat} (o : Mat a 3) (n : Fin a) :
    max (Ideal.ofBits .f32 0xFF800000#32) (rowMax o n) = rowMax o n :=
  max_eq_right ((Finset.le_fold_max _).mpr (Or.inl le_rfl))

end Cert.Sage

end
-- ==== Proof.SageAgg.lean ====
/-
  A segment sum of gathered rows, read at an entry: scattering, by destination number, the rows of `h` gathered by
  source number adds to entry `(n, k)` the sum over the edges into `n` of `h (source, k)` — the aggregation `agg`.
-/
import proofs.«143181_j4569845203115_2_alg».proof.Proof.SageSpec

noncomputable section

open scoped BigOperators

namespace Cert.Sage

open Idealize.ShloMosaic Idealize.ShloMosaic.ValueIdx Idealize.ShloMosaic.RowOps

/-- The scatter-add of the gathered rows of `h` into `z`, at `(n, k)`: `z (n, k)` plus the aggregation of `h` there. -/
theorem scatter_gather_apply {d : Nat}
    (wfS : ScatterDims.WF ⟨2, ![100000, d]⟩ ⟨2, ![600000, 1]⟩ ⟨2, ![600000, d]⟩ [1] [0] [0] 1)
    (wfG : GatherDims.WF ⟨2, ![100000, d]⟩ ⟨2, ![600000, 1]⟩ ⟨2, ![600000, d]⟩ [1] [0] [] [0] [] 1 ![1, d])
    (z : Mat 100000 d) (src dst : IdxCol) (h : Mat 100000 d) (n : Fin 100000) (k : Fin d) :
    Ideal.hostScatterAdd (rowScatterDims 100000 600000 d wfS) z dst
        (Host.gather (rowGatherDims 100000 600000 d wfG) h src) (ix2 n k)
      = z (ix2 n k) + agg src dst h (ix2 n k) := by
  rw [rowScatterAdd_apply]
  refine congrArg (z (ix2 n k) + ·) ?_
  unfold agg inEdges
  refine Finset.sum_congr rfl fun e _ => ?_
  rw [rowGather_apply (by decide)]
  rfl

/-- The same for any records of a program's that ARE the row scatter's and the row gather's dimension numbers. -/
theorem host_scatter_gather_apply {d : Nat}
    (dS : ScatterDims ⟨2, ![100000, d]⟩ ⟨2, ![600000, 1]⟩ ⟨2, ![600000, d]⟩)
    (dG : GatherDims ⟨2, ![100000, d]⟩ ⟨2, ![600000, 1]⟩ ⟨2, ![600000, d]⟩)
    (wfS : ScatterDims.WF ⟨2, ![100000, d]⟩ ⟨2, ![600000, 1]⟩ ⟨2, ![600000, d]⟩ [1] [0] [0] 1)
    (wfG : GatherDims.WF ⟨2, ![100000, d]⟩ ⟨2, ![600000, 1]⟩ ⟨2, ![600000, d]⟩ [1] [0] [] [0] [] 1 ![1, d])
    (hS : dS = rowScatterDims 100000 600000 d wfS) (hG : dG = rowGatherDims 100000 600000 d wfG)
    (z : FVec Ideal ⟨2, ![100000, d]⟩ .f32) (src dst : IdxCol) (h : FVec Ideal ⟨2, ![100000, d]⟩ .f32)
    (n : Fin 100000) (k : Fin d) :
    Host.scatterAdd dS z dst (Host.gather dG h src) (ix2 n k) = z (ix2 n k) + agg src dst h (ix2 n k) := by
  subst hS hG
  simp only [Host.scatterAdd, Ideal.hostScatterAdd_def]
  exact scatter_gather_apply wfS wfG z src dst h n k

end Cert.Sage

end
-- ==== Proof.LibColBroadcast.lean ====
/-
  One column repeated over many: an `[a, 1]` array broadcast to `[a, b]` reads, at `(p, c)`, the operand's one column
  at row `p`.
-/
import Idealize.ShloMosaic.Lib.Pipeline.Value
import Idealize.ShloMosaic.Lib.ValueIdx

open Idealize.ShloMosaic Idealize.ShloMosaic.ValueIdx

namespace Cert.ColBroadcast

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColBroadcast
-- ==== Proof.KRegion0.lean ====
/-
  The first pallas_call, read as values: each of its two output arrays, after the run of its 20 grid points, is the
  matrix product of the node features with one weight matrix.  Point `t` loads rows `5000 t … 5000 t + 4999` of the
  features and the whole of both weight matrices, and stores the two products of that row block; the stored blocks
  are exactly rows `5000 t …` of the whole products (a row of a product depends on that row of the left factor only),
  and the 20 blocks cover all 100000 rows.  The change of float format on the way into the matrix unit is the
  identity on the extended reals.
-/
import proofs.«143181_j4569845203115_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143181_j4569845203115_2_alg».proof.Proof.LibMatRead
import proofs.«143181_j4569845203115_2_alg».proof.Proof.SageSpec

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of a row block with a whole weight matrix, at an entry: the sum over the 128 shared coordinates. -/
theorem pay0_2_apply (x0 : Vec Ideal S5000x128 .f32) (x1 : Vec Ideal S128x64 .f32) (p : Fin 5000) (q : Fin 64) :
    k0_pay2 x0 x1 (ix2 p q) = ∑ k : Fin 128, x0 (ix2 p k) * x1 (ix2 k q) := by
  unfold k0_pay2 k0_pay1
  refine (Cert.MatRead.matmul_row_col_apply dot_S5000x128_S128x64_S5000x64_1_0_0_1_n_n rfl rfl rfl rfl rfl rfl none _ _ p q).trans ?_
  rfl

theorem pay0_3_apply (x0 : Vec Ideal S5000x128 .f32) (x1 : Vec Ideal S128x64 .f32) (p : Fin 5000) (q : Fin 64) :
    k0_pay3 x0 x1 (ix2 p q) = ∑ k : Fin 128, x0 (ix2 p k) * x1 (ix2 k q) := by
  unfold k0_pay3 k0_pay1
  refine (Cert.MatRead.matmul_row_col_apply dot_S5000x128_S128x64_S5000x64_1_0_0_1_n_n rfl rfl rfl rfl rfl rfl none _ _ p q).trans ?_
  rfl

/-- Where each window's block sits at point `t`: the row blocks at block row `t`, the weight matrices whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK through the first output window: block `t` of the product with the first weight matrix. -/
theorem flushed0_3_eq (c : Dev nD) (t : Fin cfg0.N) :
    (dat0 V c).flushed 3 t = ((cfg0.win 3).blk t).view.read (Elt Ideal)
      (Cert.Sage.mm (V c main_arg0 : S100000x128.Idx → EReal) (V c main_arg2 : S128x64.Idx → EReal)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz]
  obtain ⟨e0, e1, e2, e3, e4, e5, e6, e7, e8, e9⟩ := idx_facts0 t
  funext j
  obtain ⟨p, q, rfl⟩ : ∃ (p : Fin 5000) (q : Fin 64), j = ix2 p q := ⟨j 0, j 1, eq_ix2 j⟩
  refine (pay0_2_apply _ _ p q).trans ?_
  show _ = Cert.Sage.mm _ _ (((cfg0.win 3).blk t).view.emb (ix2 p q))
  unfold Cert.Sage.mm
  refine Finset.sum_congr rfl fun k _ => ?_
  have h0 : iblk0 V c 0 t (ix2 p k) = V c main_arg0 (ix2 ((((cfg0.win 3).blk t).view.emb (ix2 p q)) 0) k) := by
    show V c main_arg0 (((cfg0.win 0).blk t).view.emb (ix2 p k)) = _
    refine congrArg _ ?_
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : iblk0 V c 1 t (ix2 k q) = V c main_arg2 (ix2 k ((((cfg0.win 3).blk t).view.emb (ix2 p q)) 1)) := by
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 64 + 1 * q.val = win0_3.index t (1 : Fin 2) * 64 + 1 * q.val; omega
  exact congrArg₂ (fun a b : EReal => a * b) h0 h1

/-- An index of the first output array is in point `t`'s block iff each coordinate is in the block's range. -/
theorem mem_blk0_3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13_0).slice (win0_3.rect t)).set ↔ _
  rw [View.set_slice_whole, Rect.mem_set_unit]
  exact Iff.rfl

/-- Row `r` is in the block of point `r / 5000`. -/
theorem cover0_3_all (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 20 := N_0
  have ht : (i 0).val / 5000 < grid0.N := by rw [hN]; omega
  obtain ⟨e0, e1, e2, e3, e4, e5, e6, e7, e8, e9⟩ := idx_facts0 ⟨(i 0).val / 5000, ht⟩
  refine ⟨⟨(i 0).val / 5000, ht⟩, flush0_3 _, ?_⟩
  rw [mem_blk0_3]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    omega

/-- THE FIRST OUTPUT ARRAY after the run: the product of the features with the first weight matrix. -/
theorem final0_3 (c : Dev nD) : (dat0 V c).arrAt 3 cfg0.N
    = Cert.Sage.mm (V c main_arg0 : S100000x128.Idx → EReal) (V c main_arg2 : S128x64.Idx → EReal) :=
  (dat0 V c).arrAt_eq_of_cover 3 _ (fun t _ => flushed0_3_eq V c t) cover0_3_all

/-- WHAT POINT `t` WRITES BACK through the second output window: block `t` of the product with the second weight matrix. -/
theorem flushed0_4_eq (c : Dev nD) (t : Fin cfg0.N) :
    (dat0 V c).flushed 4 t = ((cfg0.win 4).blk t).view.read (Elt Ideal)
      (Cert.Sage.mm (V c main_arg0 : S100000x128.Idx → EReal) (V c main_arg3 : S128x64.Idx → EReal)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz]
  obtain ⟨e0, e1, e2, e3, e4, e5, e6, e7, e8, e9⟩ := idx_facts0 t
  funext j
  obtain ⟨p, q, rfl⟩ : ∃ (p : Fin 5000) (q : Fin 64), j = ix2 p q := ⟨j 0, j 1, eq_ix2 j⟩
  refine (pay0_3_apply _ _ p q).trans ?_
  show _ = Cert.Sage.mm _ _ (((cfg0.win 4).blk t).view.emb (ix2 p q))
  unfold Cert.Sage.mm
  refine Finset.sum_congr rfl fun k _ => ?_
  have h0 : iblk0 V c 0 t (ix2 p k) = V c main_arg0 (ix2 ((((cfg0.win 4).blk t).view.emb (ix2 p q)) 0) k) := by
    show V c main_arg0 (((cfg0.win 0).blk t).view.emb (ix2 p k)) = _
    refine congrArg _ ?_
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  have h1 : iblk0 V c 2 t (ix2 k q) = V c main_arg3 (ix2 k ((((cfg0.win 4).blk t).view.emb (ix2 p q)) 1)) := by
    show V c main_arg3 (((cfg0.win 2).blk t).view.emb (ix2 k q)) = _
    refine congrArg _ ?_
    funext a; apply Fin.ext
    match a with
    | ⟨0, _⟩ => show win0_2.index t (0 : Fin 2) * 128 + 1 * k.val = k.val; omega
    | ⟨1, _⟩ => show win0_2.index t (1 : Fin 2) * 64 + 1 * q.val = win0_4.index t (1 : Fin 2) * 64 + 1 * q.val; omega
  exact congrArg₂ (fun a b : EReal => a * b) h0 h1

theorem mem_blk0_4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v13_1).slice (win0_4.rect t)).set ↔ _
  rw [View.set_slice_whole, Rect.mem_set_unit]
  exact Iff.rfl

theorem cover0_4_all (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : grid0.N = 20 := N_0
  have ht : (i 0).val / 5000 < grid0.N := by rw [hN]; omega
  obtain ⟨e0, e1, e2, e3, e4, e5, e6, e7, e8, e9⟩ := idx_facts0 ⟨(i 0).val / 5000, ht⟩
  refine ⟨⟨(i 0).val / 5000, ht⟩, flush0_4 _, ?_⟩
  rw [mem_blk0_4]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win0_4.index ⟨(i 0).val / 5000, ht⟩ (1 : Fin 2) * 64 ≤ (i 1).val ∧ (i 1).val < win0_4.index ⟨(i 0).val / 5000, ht⟩ (1 : Fin 2) * 64 + 64
    omega

/-- THE SECOND OUTPUT ARRAY after the run: the product of the features with the second weight matrix. -/
theorem final0_4 (c : Dev nD) : (dat0 V c).arrAt 4 cfg0.N
    = Cert.Sage.mm (V c main_arg0 : S100000x128.Idx → EReal) (V c main_arg3 : S128x64.Idx → EReal) :=
  (dat0 V c).arrAt_eq_of_cover 4 _ (fun t _ => flushed0_4_eq V c t) cover0_4_all

end Cert.KernelIdeal.Hand

end
-- ==== Proof.KRegion1.lean ====
/-
  The second pallas_call, read as values.  Point `t` loads rows `5000 t …` of the aggregated first projection `S`, of
  the root projection `R` and of the reciprocal in-degree column `inv`, the whole bias row and both second-layer weight
  matrices; it forms the hidden activations of that row block, `max (S·inv + R + b) 0` entry by entry, and stores their
  products with the two weight matrices.  A row of a product depends on the same row of the left factor only, so
  the stored blocks are rows `5000 t …` of the products of the whole hidden-activation matrix, and the 20 blocks cover
  all rows.
-/
import proofs.«143181_j4569845203115_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143181_j4569845203115_2_alg».proof.Proof.LibMatRead
import proofs.«143181_j4569845203115_2_alg».proof.Proof.SageSpec
import proofs.«143181_j4569845203115_2_alg».proof.Proof.LibColBroadcast
import proofs.«143181_j4569845203115_2_alg».proof.Proof.KRegion0

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The hidden activations, from the aggregated projection `S`, the root projection `R`, the reciprocal in-degree
    column `INV` and the bias row `B`. -/
def hidden (S R : S100000x64.Idx → EReal) (INV : S100000x1.Idx → EReal) (B : S1x64.Idx → EReal) : S100000x64.Idx → EReal :=
  fun i => max (S i * INV (ix2 (i 0) (0 : Fin 1)) + R i + B (ix2 (0 : Fin 1) (i 1))) (Ideal.ofBits .f32 0x00000000#32)

/-- The hidden activation of a row block at an entry. -/
theorem pay1_1_apply (xi : Vec Ideal S5000x1 .f32) (xs xr : Vec Ideal S5000x64 .f32) (xb : Vec Ideal S1x64 .f32)
    (p : Fin 5000) (k : Fin 64) :
    k1_pay1 xi xs xr xb (ix2 p k)
      = max (xs (ix2 p k) * xi (ix2 p (0 : Fin 1)) + xr (ix2 p k) + xb (ix2 (0 : Fin 1) k)) (Ideal.ofBits .f32 0x00000000#32) := by
  unfold k1_pay1
  simp only [shapeCast_self]
  show max ((xs (ix2 p k) * broadcastTo S5000x64 xi broadcasts_S5000x1_S5000x64 (ix2 p k)) + xr (ix2 p k)
      + broadcastTo S5000x64 xb broadcasts_S1x64_S5000x64 (ix2 p k)) _ = _
  rw [Cert.ColBroadcast.broadcastTo_a1_ab_apply, broadcastTo_1b_ab_apply]
  rfl

/-- The product of a block of hidden activations with a weight matrix, at an entry. -/
theorem pay1_2_apply (xi : Vec Ideal S5000x1 .f32) (xs xr : Vec Ideal S5000x64 .f32) (xb : Vec Ideal S1x64 .f32)
    (xw : Vec Ideal S64x3 .f32) (p : Fin 5000) (q : Fin 3) :
    k1_pay2 xi xs xr xb xw (ix2 p q)
      = ∑ k : Fin 64, max (xs (ix2 p k) * xi (ix2 p (0 : Fin 1)) + xr (ix2 p k) + xb (ix2 (0 : Fin 1) k)) (Ideal.ofBits .f32 0x00000000#32)
          * xw (ix2 k q) := by
  unfold k1_pay2
  refine (Cert.MatRead.matmul_row_col_apply dot_S5000x64_S64x3_S5000x3_1_0_0_1_n_n rfl rfl rfl rfl rfl rfl none _ _ p q).trans ?_
  refine Finset.sum_congr rfl fun k _ => ?_
  rw [pay1_1_apply]
  rfl

theorem pay1_3_apply (xi : Vec Ideal S5000x1 .f32) (xs xr : Vec Ideal S5000x64 .f32) (xb : Vec Ideal S1x64 .f32)
    (xw : Vec Ideal S64x3 .f32) (p : Fin 5000) (q : Fin 3) :
    k1_pay3 xi xs xr xb xw (ix2 p q)
      = ∑ k : Fin 64, max (xs (ix2 p k) * xi (ix2 p (0 : Fin 1)) + xr (ix2 p k) + xb (ix2 (0 : Fin 1) k)) (Ideal.ofBits .f32 0x00000000#32)
          * xw (ix2 k q) := by
  unfold k1_pay3
  refine (Cert.MatRead.matmul_row_col_apply dot_S5000x64_S64x3_S5000x3_1_0_0_1_n_n rfl rfl rfl rfl rfl rfl none _ _ p q).trans ?_
  refine Finset.sum_congr rfl fun k _ => ?_
  rw [pay1_1_apply]
  rfl

/-- Where each window's block sits at point `t`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- WHAT POINT `t` WRITES BACK through output window 6: block `t` of the product of the hidden activations with a weight matrix. -/
theorem flushed1_6_eq (c : Dev nD) (t : Fin cfg1.N) :
    (dat1 V c).flushed 6 t = ((cfg1.win 6).blk t).view.read (Elt Ideal)
      (Cert.Sage.mm (hidden (V c main_v23) (V c main_v13_1) (V c main_v12) (V c main_v24)) (V c main_arg5 : S64x3.Idx → EReal)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S1x64) hz,
    View.ld_unit_zero (S := S64x3) hz]
  obtain ⟨e0, e1, e2, e3, e4, e5, e6, e7, e8, e9, e10, e11, e12, e13, e14, e15⟩ := idx_facts1 t
  funext j
  obtain ⟨p, q, rfl⟩ : ∃ (p : Fin 5000) (q : Fin 3), j = ix2 p q := ⟨j 0, j 1, eq_ix2 j⟩
  refine (pay1_2_apply _ _ _ _ _ p q).trans ?_
  show _ = Cert.Sage.mm _ _ (((cfg1.win 6).blk t).view.emb (ix2 p q))
  unfold Cert.Sage.mm
  refine Finset.sum_congr rfl fun k _ => ?_
  have hrow : ((((cfg1.win 6).blk t).view.emb (ix2 p q)) 0).val = t.val * 5000 + p.val := by
    show win1_6.index t (0 : Fin 2) * 5000 + 1 * p.val = _; omega
  have hs : iblk1 V c 0 t (ix2 p k) = (V c main_v23 : S100000x64.Idx → EReal) (ix2 ((((cfg1.win 6).blk t).view.emb (ix2 p q)) 0) k) := by
    show V c main_v23 (((cfg1.win 0).blk t).view.emb (ix2 p k)) = _
    refine congrArg _ ?_
    funext a; apply Fin.ext
    match a with
    | ⟨0, _⟩ => show win1_0.index t (0 : Fin 2) * 5000 + 1 * p.val = _; rw [hrow]; omega
    | ⟨1, _⟩ => show win1_0.index t (1 : Fin 2) * 64 + 1 * k.val = k.val; omega
  have hr : iblk1 V c 1 t (ix2 p k) = (V c main_v13_1 : S100000x64.Idx → EReal) (ix2 ((((cfg1.win 6).blk t).view.emb (ix2 p q)) 0) k) := by
    show V c main_v13_1 (((cfg1.win 1).blk t).view.emb (ix2 p k)) = _
    refine congrArg _ ?_
    funext a; apply Fin.ext
    match a with
    | ⟨0, _⟩ => show win1_1.index t (0 : Fin 2) * 5000 + 1 * p.val = _; rw [hrow]; omega
    | ⟨1, _⟩ => show win1_1.index t (1 : Fin 2) * 64 + 1 * k.val = k.val; omega
  have hi : iblk1 V c 2 t (ix2 p (0 : Fin 1)) = (V c main_v12 : S100000x1.Idx → EReal) (ix2 ((((cfg1.win 6).blk t).view.emb (ix2 p q)) 0) (0 : Fin 1)) := by
    show V c main_v12 (((cfg1.win 2).blk t).view.emb (ix2 p (0 : Fin 1))) = _
    refine congrArg _ ?_
    funext a; apply Fin.ext
    match a with
    | ⟨0, _⟩ => show win1_2.index t (0 : Fin 2) * 5000 + 1 * p.val = _; rw [hrow]; omega
    | ⟨1, _⟩ => show win1_2.index t (1 : Fin 2) * 1 + 1 * 0 = 0; omega
  have hb : iblk1 V c 3 t (ix2 (0 : Fin 1) k) = (V c main_v24 : S1x64.Idx → EReal) (ix2 (0 : Fin 1) k) := by
    show V c main_v24 (((cfg1.win 3).blk t).view.emb (ix2 (0 : Fin 1) k)) = _
    refine congrArg _ ?_
    funext a; apply Fin.ext
    match a with
    | ⟨0, _⟩ => show win1_3.index t (0 : Fin 2) * 1 + 1 * 0 = 0; omega
    | ⟨1, _⟩ => show win1_3.index t (1 : Fin 2) * 64 + 1 * k.val = k.val; omega
  have hw : iblk1 V c 4 t (ix2 k q) = (V c main_arg5 : S64x3.Idx → EReal) (ix2 k ((((cfg1.win 6).blk t).view.emb (ix2 p q)) 1)) := by
    show V c main_arg5 (((cfg1.win 4).blk t).view.emb (ix2 k q)) = _
    refine congrArg _ ?_
    funext a; apply Fin.ext
    match a with
    | ⟨0, _⟩ => show win1_4.index t (0 : Fin 2) * 64 + 1 * k.val = k.val; omega
    | ⟨1, _⟩ => show win1_4.index t (1 : Fin 2) * 3 + 1 * q.val = win1_6.index t (1 : Fin 2) * 3 + 1 * q.val; omega
  unfold hidden
  rw [hs, hr, hi, hb, hw]

theorem mem_blk1_6 (t : Fin cfg1.N) (i : S100000x3.Idx) :
    i ∈ ((cfg1.win 6).blk t).view.set ↔ ∀ a : Fin 2, win1_6.index t a * S5000x3.size a ≤ (i a).val ∧ (i a).val < win1_6.index t a * S5000x3.size a + S5000x3.size a := by
  show i ∈ ((View.whole main_v25_0).slice (win1_6.rect t)).set ↔ _
  rw [View.set_slice_whole, Rect.mem_set_unit]
  exact Iff.rfl

theorem cover1_6_all (i : S100000x3.Idx) :
    ∃ t : Fin cfg1.N, (cfg1.win 6).flush t = true ∧ i ∈ ((cfg1.win 6).blk t).view.set := by
  have hi0 : (i 0).val < 100000 := (i 0).isLt
  have hi1 : (i 1).val < 3 := (i 1).isLt
  have hN : grid1.N = 20 := N_1
  have ht : (i 0).val / 5000 < grid1.N := by rw [hN]; omega
  obtain ⟨e0, e1, e2, e3, e4, e5, e6, e7, e8, e9, e10, e11, e12, e13, e14, e15⟩ := idx_facts1 ⟨(i 0).val / 5000, ht⟩
  refine ⟨⟨(i 0).val / 5000, ht⟩, flush1_6 _, ?_⟩
  rw [mem_blk1_6]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e12]; show (i 0).val / 5000 * 5000 ≤ (i 0).val ∧ (i 0).val < (i 0).val / 5000 * 5000 + 5000; omega
  | ⟨1, _⟩ =>
    show win1_6.index ⟨(i 0).val / 5000, ht⟩ (1 : Fin 2) * 3 ≤ (i 1).val ∧ (i 1).val < win1_6.index ⟨(i 0).val / 5000, ht⟩ (1 : Fin 2) * 3 + 3
    omega

/-- OUTPUT ARRAY ONE of the second pallas_call after the run. -/
theorem final1_6 (c : Dev nD) : (dat1 V c).arrAt 6 cfg1.N
    = Cert.Sage.mm (hidden (V c main_v23) (V c main_v13_1) (V c main_v12) (V c main_v24)) (V c main_arg5 : S64x3.Idx → EReal) :=
  (dat1 V c).arrAt_eq_of_cover 6 _ (fun t _ => flushed1_6_eq V c t) cover1_6_all

/-- WHAT POINT `t` WRITES BACK through output window 7: block `t` of the product of the hidden activations with a weight matrix. -/
theorem flushed1_7_eq (c : Dev nD) (t : Fin cfg1.N) :
    (dat1 V c).flushed 7 t = ((cfg1.win 7).blk t).view.read (Elt Ideal)
      (Cert.Sage.mm (hidden (V c main_v23) (V c main_v13_1) (V c main_v12) (V c main_v24)) (V c main_arg6 : S64x3.Idx → EReal)) := by
  show (cfg1.win 7).cut (grid1.coords t) ((dat1 V c).after 7 t) = _
  rw [after1_7]
  unfold out1_7
  rw [View.canon_unit_zero hz]
  simp only [View.ld_unit_zero (S := S5000x64) hz, View.ld_unit_zero (S := S5000x1) hz, View.ld_unit_zero (S := S1x64) hz,
    View.ld_unit_zero (S := S64x3) hz]
  obtain ⟨e0, e1, e2, e3, e4, e5, e6, e7, e8, e9, e10, e11, e12, e13, e14, e15⟩ := idx_facts1 t
  funext j
  obtain ⟨p, q, rfl⟩ : ∃ (p : Fin 5000) (q : Fin 3), j = ix2 p q := ⟨j 0, j 1, eq_ix2 j⟩
  refine (pay1_3_apply _ _ _ _ _ p q).trans ?_
  show _ = Cert.Sage.mm _ _ (((cfg1.win 7).blk t).view.emb (ix2 p q))
  unfold Cert.Sage.mm
  refine Finset.sum_congr rfl fun k _ => ?_
  have hrow : ((((cfg1.win 7).blk t).view.emb (ix2 p q)) 0).val = t.val * 5000 + p.val := by
    show win1_7.index t (0 : Fin 2) * 5000 + 1 * p.val = _; omega
  have hs : iblk1 V c 0 t (ix2 p k) = (V c main_v23 : S100000x64.Idx → EReal) (ix2 ((((cfg1.win 7).blk t).view.emb (ix2 p q)) 0) k) := by
    show V c main_v23 (((cfg1.win 0).blk t).view.emb (ix2 p k)) = _
    refine congrArg _ ?_
    funext a; apply Fin.ext
    match a with
    | ⟨0, _⟩ => show win1_0.index t (0 : Fin 2) * 5000 + 1 * p.val = _; rw [hrow]; omega
    | ⟨1, _⟩ => show win1_0.index t (1 : Fin 2) * 64 + 1 * k.val = k.val; omega
  have hr : iblk1 V c 1 t (ix2 p k) = (V c main_v13_1 : S100000x64.Idx → EReal) (ix2 ((((cfg1.win 7).blk t).view.emb (ix2 p q)) 0) k) := by
    show V c main_v13_1 (((cfg1.win 1).blk t).view.emb (ix2 p k)) = _
    refine congrArg _ ?_
    funext a; apply Fin.ext
    match a with
    | ⟨0, _⟩ => show win1_1.index t (0 : Fin 2) * 5000 + 1 * p.val = _; rw [hrow]; omega
    | ⟨1, _⟩ => show win1_1.index t (1 : Fin 2) * 64 + 1 * k.val = k.val; omega
  have hi : iblk1 V c 2 t (ix2 p (0 : Fin 1)) = (V c main_v12 : S100000x1.Idx → EReal) (ix2 ((((cfg1.win 7).blk t).view.emb (ix2 p q)) 0) (0 : Fin 1)) := by
    show V c main_v12 (((cfg1.win 2).blk t).view.emb (ix2 p (0 : Fin 1))) = _
    refine congrArg _ ?_
    funext a; apply Fin.ext
    match a with
    | ⟨0, _⟩ => show win1_2.index t (0 : Fin 2) * 5000 + 1 * p.val = _; rw [hrow]; omega
    | ⟨1, _⟩ => show win1_2.index t (1 : Fin 2) * 1 + 1 * 0 = 0; omega
  have hb : iblk1 V c 3 t (ix2 (0 : Fin 1) k) = (V c main_v24 : S1x64.Idx → EReal) (ix2 (0 : Fin 1) k) := by
    show V c main_v24 (((cfg1.win 3).blk t).view.emb (ix2 (0 : Fin 1) k)) = _
    refine congrArg _ ?_
    funext a; apply Fin.ext
    match a with
    | ⟨0, _⟩ => show win1_3.index t (0 : Fin 2) * 1 + 1 * 0 = 0; omega
    | ⟨1, _⟩ => show win1_3.index t (1 : Fin 2) * 64 + 1 * k.val = k.val; omega
  have hw : iblk1 V c 5 t (ix2 k q) = (V c main_arg6 : S64x3.Idx → EReal) (ix2 k ((((cfg1.win 7).blk t).view.emb (ix2 p q)) 1)) := by
    show V c main_arg6 (((cfg1.win 5).blk t).view.emb (ix2 k q)) = _
    refine congrArg _ ?_
    funext a; apply Fin.ext
    match a with
    | ⟨0, _⟩ => show win1_5.index t (0 : Fin 2) * 64 + 1 * k.val = k.val; omega
    | ⟨1, _⟩ => show win1_5.index t (1 : Fin 2) * 3 + 1 * q.val = win1_7.index t (1 : Fin 2) * 3 + 1 * q.val; omega
  unfold hidden
  rw [hs, hr, hi, hb, hw]

theorem mem_blk1_7 (t : Fin cfg1.N) (i : S100000x3.Idx) :
    i ∈ ((cfg1.win 7).blk t).view.set ↔ ∀ a : Fin 2, win1_7.index t a * S5000x3.size a ≤ (i a).val ∧ (i a).val < win1_7.index t a * S5000x3.size a + S5000x3.size a := by
  show i ∈ ((View.whole main_v25_1).slice (win1_7.rect t)).set ↔ _
  rw [View.set_slice_whole, Rect.mem_set_unit]
  exact Iff.rfl

theorem cover1_7_all (i : S100000x3.Idx) :
    ∃ t : Fin cfg1.N, (cfg1.win 7).flush t = true ∧ i ∈ ((cfg1.win 7).blk t).view.set := by
  have hi0 : (i 0).val < 100000 := (i 0).isLt
  have hi1 : (i 1).val < 3 := (i 1).isLt
  have hN : grid1.N = 20 := N_1
  have ht : (i 0).val / 5000 < grid1.N := by rw [hN]; omega
  obtain ⟨e0, e1, e2, e3, e4, e5, e6, e7, e8, e9, e10, e11, e12, e13, e14, e15⟩ := idx_facts1 ⟨(i 0).val / 5000, ht⟩
  refine ⟨⟨(i 0).val / 5000, ht⟩, flush1_7 _, ?_⟩
  rw [mem_blk1_7]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e14]; show (i 0).val / 5000 * 5000 ≤ (i 0).val ∧ (i 0).val < (i 0).val / 5000 * 5000 + 5000; omega
  | ⟨1, _⟩ =>
    show win1_7.index ⟨(i 0).val / 5000, ht⟩ (1 : Fin 2) * 3 ≤ (i 1).val ∧ (i 1).val < win1_7.index ⟨(i 0).val / 5000, ht⟩ (1 : Fin 2) * 3 + 3
    omega

/-- OUTPUT ARRAY TWO of the second pallas_call after the run. -/
theorem final1_7 (c : Dev nD) : (dat1 V c).arrAt 7 cfg1.N
    = Cert.Sage.mm (hidden (V c main_v23) (V c main_v13_1) (V c main_v12) (V c main_v24)) (V c main_arg6 : S64x3.Idx → EReal) :=
  (dat1 V c).arrAt_eq_of_cover 7 _ (fun t _ => flushed1_7_eq V c t) cover1_7_all

end Cert.KernelIdeal.Hand

end
-- ==== Proof.KRegion2.lean ====
/-
  The third pallas_call, read as values.  Point `t` loads rows `5000 t …` of the aggregated second projection `S`, of
  the root projection `R` and of the reciprocal in-degree column `inv`, and the whole bias row; it forms
  `S·inv + R + b` entry by entry and stores the row-wise log-softmax of that block: each row minus its maximum, minus
  the logarithm of the sum of the exponentials of the shifted row.  A row of the log-softmax depends on that row
  only, so the stored blocks are rows `5000 t …` of the log-softmax of the whole matrix, and the 20 blocks cover all
  rows.  The row maximum is the fold of `max` from the pattern of `-∞` over the row's three entries, the row sum the
  sum over them.
-/
import proofs.«143181_j4569845203115_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143181_j4569845203115_2_alg».proof.Proof.LibMatRead
import proofs.«143181_j4569845203115_2_alg».proof.Proof.SageSpec
import proofs.«143181_j4569845203115_2_alg».proof.Proof.LibColBroadcast
import proofs.«143181_j4569845203115_2_alg».proof.Proof.KRegion0

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The pre-activation of the output layer, from the aggregated projection `S`, the root projection `R`, the reciprocal
    in-degree column `INV` and the bias row `B`. -/
def preOut (S R : S100000x3.Idx → EReal) (INV : S100000x1.Idx → EReal) (B : S1x3.Idx → EReal) : S100000x3.Idx → EReal :=
  fun i => S i * INV (ix2 (i 0) (0 : Fin 1)) + R i + B (ix2 (0 : Fin 1) (i 1))

/-- The same on a row block. -/
def preB (xi : Vec Ideal S5000x1 .f32) (xs xr : Vec Ideal S5000x3 .f32) (xb : Vec Ideal S1x3 .f32) : FVec Ideal S5000x3 .f32 :=
  addf (addf (mulf xs (broadcastTo S5000x3 xi broadcasts_S5000x1_S5000x3)) xr) (broadcastTo S5000x3 xb broadcasts_S1x3_S5000x3)

theorem preB_apply (xi : Vec Ideal S5000x1 .f32) (xs xr : Vec Ideal S5000x3 .f32) (xb : Vec Ideal S1x3 .f32) (p : Fin 5000) (j : Fin 3) :
    preB xi xs xr xb (ix2 p j) = xs (ix2 p j) * xi (ix2 p (0 : Fin 1)) + xr (ix2 p j) + xb (ix2 (0 : Fin 1) j) := by
  unfold preB
  show (xs (ix2 p j) * broadcastTo S5000x3 xi broadcasts_S5000x1_S5000x3 (ix2 p j)) + xr (ix2 p j)
      + broadcastTo S5000x3 xb broadcasts_S1x3_S5000x3 (ix2 p j) = _
  rw [Cert.ColBroadcast.broadcastTo_a1_ab_apply, broadcastTo_1b_ab_apply]

/-- A block's row maxima. -/
def rowMaxB (o : FVec Ideal S5000x3 .f32) : FVec Ideal S5000 .f32 :=
  multiReduction .maximumf [1] S5000 o 0xFF800000#32 reduces_S5000x3_S5000 (.inl rfl) rfl
/-- A block with each row's maximum subtracted. -/
def shiftB (o : FVec Ideal S5000x3 .f32) : FVec Ideal S5000x3 .f32 :=
  subf o (broadcastTo S5000x3 (shapeCast S5000x1 (rowMaxB o) shapeCasts_S5000_S5000x1) broadcasts_S5000x1_S5000x3)
/-- The logarithm of each shifted row's sum of exponentials. -/
def lseB (o : FVec Ideal S5000x3 .f32) : FVec Ideal S5000x1 .f32 :=
  log (shapeCast S5000x1 (multiReduction .add [1] S5000 (exp (shiftB o)) 0x00000000#32 reduces_S5000x3_S5000 (.inl rfl) rfl) shapeCasts_S5000_S5000x1)
/-- A block's row-wise log-softmax, as the body computes it. -/
def lsmB (o : FVec Ideal S5000x3 .f32) : FVec Ideal S5000x3 .f32 :=
  subf (shiftB o) (broadcastTo S5000x3 (lseB o) broadcasts_S5000x1_S5000x3)

/-- The body's stored value is the log-softmax of the block's pre-activation. -/
theorem pay2_1_eq (xi : Vec Ideal S5000x1 .f32) (xs xr : Vec Ideal S5000x3 .f32) (xb : Vec Ideal S1x3 .f32) :
    k2_pay1 xi xs xr xb = lsmB (preB xi xs xr xb) := by
  unfold k2_pay1
  simp only [shapeCast_self]
  rfl

theorem rowMaxB_apply (o : FVec Ideal S5000x3 .f32) (p : Fin 5000) : rowMaxB o (ix1 p) = Cert.Sage.rowMax o p := by
  unfold rowMaxB
  refine (Ideal.multiReduction_maximumf_single o 0xFF800000#32 reduces_S5000x3_S5000 (.inl rfl) rfl (ix1 p)).trans ?_
  unfold Cert.Sage.rowMax
  refine congrArg (fun f : Fin 3 → EReal => Finset.fold max (Ideal.ofBits .f32 0xFF800000#32) f Finset.univ) ?_
  funext k
  show o (reduces_S5000x3_S5000.lift (ix1 p) k) = o (ix2 p k)
  refine congrArg o ?_
  funext a; apply Fin.ext
  match a with
  | ⟨0, _⟩ => rfl
  | ⟨1, _⟩ => rfl

theorem rowSum_apply (o : FVec Ideal S5000x3 .f32) (p : Fin 5000) :
    multiReduction .add [1] S5000 o 0x00000000#32 reduces_S5000x3_S5000 (.inl rfl) rfl (ix1 p) = ∑ k : Fin 3, o (ix2 p k) := by
  refine (Ideal.multiReduction_add_single o 0x00000000#32 reduces_S5000x3_S5000 (.inl rfl) rfl (ix1 p)).trans ?_
  refine Finset.sum_congr rfl fun k _ => ?_
  refine congrArg o ?_
  funext a; apply Fin.ext
  match a with
  | ⟨0, _⟩ => rfl
  | ⟨1, _⟩ => rfl

theorem shiftB_apply (o : FVec Ideal S5000x3 .f32) (p : Fin 5000) (k : Fin 3) :
    shiftB o (ix2 p k) = o (ix2 p k) - Cert.Sage.rowMax o p := by
  unfold shiftB
  show o (ix2 p k) - broadcastTo S5000x3 (shapeCast S5000x1 (rowMaxB o) shapeCasts_S5000_S5000x1) broadcasts_S5000x1_S5000x3 (ix2 p k) = _
  rw [Cert.ColBroadcast.broadcastTo_a1_ab_apply, shapeCast_a_a1_apply, rowMaxB_apply]

/-- THE BLOCK LOG-SOFTMAX AT AN ENTRY is the row-wise log-softmax of the block at that entry. -/
theorem lsmB_apply (o : FVec Ideal S5000x3 .f32) (p : Fin 5000) (j : Fin 3) : lsmB o (ix2 p j) = Cert.Sage.lsm o (ix2 p j) := by
  unfold lsmB
  show shiftB o (ix2 p j) - broadcastTo S5000x3 (lseB o) broadcasts_S5000x1_S5000x3 (ix2 p j) = _
  rw [Cert.ColBroadcast.broadcastTo_a1_ab_apply]
  unfold lseB
  show shiftB o (ix2 p j) - Ideal.log (shapeCast S5000x1 (multiReduction .add [1] S5000 (exp (shiftB o)) 0x00000000#32 reduces_S5000x3_S5000 (.inl rfl) rfl) shapeCasts_S5000_S5000x1 (ix2 p (0 : Fin 1))) = _
  rw [shapeCast_a_a1_apply, rowSum_apply, shiftB_apply]
  unfold Cert.Sage.lsm
  refine congrArg (fun z => (o (ix2 p j) - Cert.Sage.rowMax o p) - Ideal.log z) (Finset.sum_congr rfl fun k _ => ?_)
  show Ideal.exp (shiftB o (ix2 p k)) = _
  rw [shiftB_apply]

/-- The log-softmax of a row reads that row only: equal rows give equal results. -/
theorem lsm_congr_row {a b : Nat} (o : Cert.Sage.Mat a 3) (o' : Cert.Sage.Mat b 3) (p : Fin a) (n : Fin b)
    (h : ∀ k : Fin 3, o (ix2 p k) = o' (ix2 n k)) (j : Fin 3) : Cert.Sage.lsm o (ix2 p j) = Cert.Sage.lsm o' (ix2 n j) := by
  have hm : Cert.Sage.rowMax o p = Cert.Sage.rowMax o' n := by
    unfold Cert.Sage.rowMax
    exact congrArg (fun f : Fin 3 → EReal => Finset.fold max (Ideal.ofBits .f32 0xFF800000#32) f Finset.univ) (funext h)
  unfold Cert.Sage.lsm
  show (o (ix2 p j) - Cert.Sage.rowMax o p) - Ideal.log (∑ k : Fin 3, Ideal.exp (o (ix2 p k) - Cert.Sage.rowMax o p))
    = (o' (ix2 n j) - Cert.Sage.rowMax o' n) - Ideal.log (∑ k : Fin 3, Ideal.exp (o' (ix2 n k) - Cert.Sage.rowMax o' n))
  rw [hm, h j]
  refine congrArg (fun z => (o' (ix2 n j) - Cert.Sage.rowMax o' n) - Ideal.log z) (Finset.sum_congr rfl fun k _ => ?_)
  rw [h k]

/-- Where each window's block sits at point `t`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK: block `t` of the log-softmax of the whole pre-activation matrix. -/
theorem flushed2_4_eq (c : Dev nD) (t : Fin cfg2.N) :
    (dat2 V c).flushed 4 t = ((cfg2.win 4).blk t).view.read (Elt Ideal)
      (Cert.Sage.lsm (preOut (V c main_v35) (V c main_v25_1) (V c main_v12) (V c main_v36))) := by
  show (cfg2.win 4).cut (grid2.coords t) ((dat2 V c).after 4 t) = _
  rw [after2_4]
  unfold out2_4
  rw [View.canon_unit_zero hz]
  simp only [View.ld_unit_zero (S := S5000x3) hz, View.ld_unit_zero (S := S5000x1) hz, View.ld_unit_zero (S := S1x3) hz]
  obtain ⟨e0, e1, e2, e3, e4, e5, e6, e7, e8, e9⟩ := idx_facts2 t
  funext j
  obtain ⟨p, q, rfl⟩ : ∃ (p : Fin 5000) (q : Fin 3), j = ix2 p q := ⟨j 0, j 1, eq_ix2 j⟩
  rw [pay2_1_eq]
  refine (lsmB_apply _ p q).trans ?_
  have hrow : ((((cfg2.win 4).blk t).view.emb (ix2 p q)) 0).val = t.val * 5000 + p.val := by
    show win2_4.index t (0 : Fin 2) * 5000 + 1 * p.val = _; omega
  have hcol : ((((cfg2.win 4).blk t).view.emb (ix2 p q)) 1) = q := by
    apply Fin.ext
    show win2_4.index t (1 : Fin 2) * 3 + 1 * q.val = q.val; omega
  show _ = Cert.Sage.lsm (preOut (V c main_v35) (V c main_v25_1) (V c main_v12) (V c main_v36)) (((cfg2.win 4).blk t).view.emb (ix2 p q))
  rw [eq_ix2 (((cfg2.win 4).blk t).view.emb (ix2 p q)), hcol]
  refine lsm_congr_row _ _ p _ (fun k => ?_) q
  rw [preB_apply]
  unfold preOut
  have hs : iblk2 V c 0 t (ix2 p k) = (V c main_v35 : S100000x3.Idx → EReal) (ix2 ((((cfg2.win 4).blk t).view.emb (ix2 p q)) 0) k) := by
    show V c main_v35 (((cfg2.win 0).blk t).view.emb (ix2 p k)) = _
    refine congrArg _ ?_
    funext a; apply Fin.ext
    match a with
    | ⟨0, _⟩ => show win2_0.index t (0 : Fin 2) * 5000 + 1 * p.val = _; rw [hrow]; omega
    | ⟨1, _⟩ => show win2_0.index t (1 : Fin 2) * 3 + 1 * k.val = k.val; omega
  have hr : iblk2 V c 1 t (ix2 p k) = (V c main_v25_1 : S100000x3.Idx → EReal) (ix2 ((((cfg2.win 4).blk t).view.emb (ix2 p q)) 0) k) := by
    show V c main_v25_1 (((cfg2.win 1).blk t).view.emb (ix2 p k)) = _
    refine congrArg _ ?_
    funext a; apply Fin.ext
    match a with
    | ⟨0, _⟩ => show win2_1.index t (0 : Fin 2) * 5000 + 1 * p.val = _; rw [hrow]; omega
    | ⟨1, _⟩ => show win2_1.index t (1 : Fin 2) * 3 + 1 * k.val = k.val; omega
  have hi : iblk2 V c 2 t (ix2 p (0 : Fin 1)) = (V c main_v12 : S100000x1.Idx → EReal) (ix2 ((((cfg2.win 4).blk t).view.emb (ix2 p q)) 0) (0 : Fin 1)) := by
    show V c main_v12 (((cfg2.win 2).blk t).view.emb (ix2 p (0 : Fin 1))) = _
    refine congrArg _ ?_
    funext a; apply Fin.ext
    match a with
    | ⟨0, _⟩ => show win2_2.index t (0 : Fin 2) * 5000 + 1 * p.val = _; rw [hrow]; omega
    | ⟨1, _⟩ => show win2_2.index t (1 : Fin 2) * 1 + 1 * 0 = 0; omega
  have hb : iblk2 V c 3 t (ix2 (0 : Fin 1) k) = (V c main_v36 : S1x3.Idx → EReal) (ix2 (0 : Fin 1) k) := by
    show V c main_v36 (((cfg2.win 3).blk t).view.emb (ix2 (0 : Fin 1) k)) = _
    refine congrArg _ ?_
    funext a; apply Fin.ext
    match a with
    | ⟨0, _⟩ => show win2_3.index t (0 : Fin 2) * 1 + 1 * 0 = 0; omega
    | ⟨1, _⟩ => show win2_3.index t (1 : Fin 2) * 3 + 1 * k.val = k.val; omega
  rw [hs, hr, hi, hb]

theorem mem_blk2_4 (t : Fin cfg2.N) (i : S100000x3.Idx) :
    i ∈ ((cfg2.win 4).blk t).view.set ↔ ∀ a : Fin 2, win2_4.index t a * S5000x3.size a ≤ (i a).val ∧ (i a).val < win2_4.index t a * S5000x3.size a + S5000x3.size a := by
  show i ∈ ((View.whole main_v37).slice (win2_4.rect t)).set ↔ _
  rw [View.set_slice_whole, Rect.mem_set_unit]
  exact Iff.rfl

theorem cover2_4_all (i : S100000x3.Idx) :
    ∃ t : Fin cfg2.N, (cfg2.win 4).flush t = true ∧ i ∈ ((cfg2.win 4).blk t).view.set := by
  have hi0 : (i 0).val < 100000 := (i 0).isLt
  have hi1 : (i 1).val < 3 := (i 1).isLt
  have hN : grid2.N = 20 := N_2
  have ht : (i 0).val / 5000 < grid2.N := by rw [hN]; omega
  obtain ⟨e0, e1, e2, e3, e4, e5, e6, e7, e8, e9⟩ := idx_facts2 ⟨(i 0).val / 5000, ht⟩
  refine ⟨⟨(i 0).val / 5000, ht⟩, flush2_4 _, ?_⟩
  rw [mem_blk2_4]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win2_4.index ⟨(i 0).val / 5000, ht⟩ (1 : Fin 2) * 3 ≤ (i 1).val ∧ (i 1).val < win2_4.index ⟨(i 0).val / 5000, ht⟩ (1 : Fin 2) * 3 + 3
    omega

/-- THE RESULT ARRAY after the run of the third pallas_call. -/
theorem final2_4 (c : Dev nD) : (dat2 V c).arrAt 4 cfg2.N
    = Cert.Sage.lsm (preOut (V c main_v35) (V c main_v25_1) (V c main_v12) (V c main_v36)) :=
  (dat2 V c).arrAt_eq_of_cover 4 _ (fun t _ => flushed2_4_eq V c t) cover2_4_all

end Cert.KernelIdeal.Hand

end
-- ==== Proof.KChain.lean ====
/-
  The kernel program's run, read as values: the contents of every array a pallas_call reads, traced back through the
  host operations and the earlier pallas_calls to the program's arguments, and the result as ONE function of the
  arguments — the network with each layer projecting first (`Cert.Sage.kPre`).  The in-degree count is a scatter-add of
  ones; the reciprocal in-degree column is `1 / max (count, 1)`; the aggregation feeding each later pallas_call is a
  scatter-add (by destination number) of gathered rows (by source number) of the previous pallas_call's first output.
-/
import proofs.«143181_j4569845203115_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143181_j4569845203115_2_alg».proof.Proof.LibMatRead
import proofs.«143181_j4569845203115_2_alg».proof.Proof.SageSpec
import proofs.«143181_j4569845203115_2_alg».proof.Proof.SageAgg
import proofs.«143181_j4569845203115_2_alg».proof.Proof.KRegion1
import proofs.«143181_j4569845203115_2_alg».proof.Proof.KRegion2
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg)

/-- Row 0 of the edge array as a flat array of source numbers. -/
def srcFlat (x1 : (⟨S2x600000, .i32⟩ : BufTy).Contents (Elt Ideal)) : (⟨S600000, .i32⟩ : BufTy).Contents (Elt Ideal) :=
  shapeCast _ (extractStridedSlice S1x600000 ![0, 0] x1 slices_S2x600000_S1x600000_0_0) shapeCasts_S1x600000_S600000
/-- The source column: a negative number has 100000 added (then the gather clamps). -/
def srcCol (x1 : (⟨S2x600000, .i32⟩ : BufTy).Contents (Elt Ideal)) : Cert.Sage.IdxCol :=
  broadcastInDim S600000x1 ![0] bcast_S600000_S600000x1_0
    (select (cmpi .slt (srcFlat x1) (broadcastInDim S600000 ![] bcast_S_S600000 (constantI S_ 32 0#32)))
      (addi (srcFlat x1) (broadcastInDim S600000 ![] bcast_S_S600000 (constantI S_ 32 100000#32))) (srcFlat x1))
/-- The destination column: row 1 of the edge array. -/
def dstCol (x1 : (⟨S2x600000, .i32⟩ : BufTy).Contents (Elt Ideal)) : Cert.Sage.IdxCol :=
  broadcastInDim S600000x1 ![0] bcast_S600000_S600000x1_0
    (shapeCast _ (extractStridedSlice S1x600000 ![1, 0] x1 slices_S2x600000_S1x600000_1_0) shapeCasts_S1x600000_S600000)
/-- The in-degree clamped below by one. -/
def cntClamped (x1 : (⟨S2x600000, .i32⟩ : BufTy).Contents (Elt Ideal)) : (⟨S100000, .f32⟩ : BufTy).Contents (Elt Ideal) :=
  maximumf
    (Host.scatterAdd scatter_S100000_S600000x1_S600000_n_0_0_1
      (broadcastInDim S100000 ![] bcast_S_S100000 (constant (F := Ideal) S_ .f32 0x00000000#32)) (dstCol x1)
      (broadcastInDim S600000 ![] bcast_S_S600000 (constant (F := Ideal) S_ .f32 0x3F800000#32)))
    (broadcastInDim S100000 ![] bcast_S_S100000 (constant (F := Ideal) S_ .f32 0x3F800000#32))
/-- The reciprocal in-degree column. -/
def invCol (x1 : (⟨S2x600000, .i32⟩ : BufTy).Contents (Elt Ideal)) : (⟨S100000x1, .f32⟩ : BufTy).Contents (Elt Ideal) :=
  shapeCast _ (Host.divf (F := Ideal) (broadcastInDim S100000 ![] bcast_S_S100000 (constant (F := Ideal) S_ .f32 0x3F800000#32)) (cntClamped x1))
    shapeCasts_S100000_S100000x1

/-! ## Entering the first pallas_call -/

theorem V1_arg0 (c : Dev nD) : V1 m ρ c main_arg0 = m ((c : Thread nD τ).loc main_arg0) := by
  show StableHlo.after hostOps0 (W0 m ρ c) (Proc.devRef .tc main_arg0) = _
  dsimp only [hostOps0]
  after_results
theorem V1_arg2 (c : Dev nD) : V1 m ρ c main_arg2 = m ((c : Thread nD τ).loc main_arg2) := by
  show StableHlo.after hostOps0 (W0 m ρ c) (Proc.devRef .tc main_arg2) = _
  dsimp only [hostOps0]
  after_results
theorem V1_arg3 (c : Dev nD) : V1 m ρ c main_arg3 = m ((c : Thread nD τ).loc main_arg3) := by
  show StableHlo.after hostOps0 (W0 m ρ c) (Proc.devRef .tc main_arg3) = _
  dsimp only [hostOps0]
  after_results
theorem W1_v12 (c : Dev nD) : W1 m ρ c (Proc.devRef .tc main_v12) = invCol (m ((c : Thread nD τ).loc main_arg1)) := by
  show StableHlo.after hostOps0 (W0 m ρ c) (Proc.devRef .tc main_v12) = _
  dsimp only [hostOps0]
  after_results
  rfl
theorem W1_v3 (c : Dev nD) : W1 m ρ c (Proc.devRef .tc main_v3)
    = shapeCast _ (extractStridedSlice S1x600000 ![1, 0] (m ((c : Thread nD τ).loc main_arg1)) slices_S2x600000_S1x600000_1_0) shapeCasts_S1x600000_S600000 := by
  show StableHlo.after hostOps0 (W0 m ρ c) (Proc.devRef .tc main_v3) = _
  dsimp only [hostOps0]
  after_results
  rfl
theorem W1_v1 (c : Dev nD) : W1 m ρ c (Proc.devRef .tc main_v1) = srcFlat (m ((c : Thread nD τ).loc main_arg1)) := by
  show StableHlo.after hostOps0 (W0 m ρ c) (Proc.devRef .tc main_v1) = _
  dsimp only [hostOps0]
  after_results
  rfl

theorem W1_arg4 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results
theorem W1_arg5 (c : Dev nD) : W1 m ρ c (Proc.devRef .tc main_arg5) = (m ((c : Thread nD τ).loc main_arg5)) := by
  show StableHlo.after hostOps0 (W0 m ρ c) (Proc.devRef .tc main_arg5) = _
  dsimp only [hostOps0]
  after_results
theorem W1_arg6 (c : Dev nD) : W1 m ρ c (Proc.devRef .tc main_arg6) = (m ((c : Thread nD τ).loc main_arg6)) := by
  show StableHlo.after hostOps0 (W0 m ρ c) (Proc.devRef .tc main_arg6) = _
  dsimp only [hostOps0]
  after_results
theorem W1_arg7 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results

/-! ## After the first pallas_call -/

/-- The two projections of the features. -/
theorem W2_v13_0 (c : Dev nD) : W2 m ρ c (Proc.devRef .tc main_v13_0) = Cert.Sage.mm (m ((c : Thread nD τ).loc main_arg0)) (m ((c : Thread nD τ).loc main_arg2)) := by
  refine (W2_arr m ρ c 3).trans ((final0_3 (V1 m ρ) c).trans ?_)
  rw [V1_arg0, V1_arg2]
theorem W2_v13_1 (c : Dev nD) : W2 m ρ c (Proc.devRef .tc main_v13_1) = Cert.Sage.mm (m ((c : Thread nD τ).loc main_arg0)) (m ((c : Thread nD τ).loc main_arg3)) := by
  refine (W2_arr m ρ c 4).trans ((final0_4 (V1 m ρ) c).trans ?_)
  rw [V1_arg0, V1_arg3]
theorem W2_v3 (c : Dev nD) : W2 m ρ c (Proc.devRef .tc main_v3)
    = shapeCast _ (extractStridedSlice S1x600000 ![1, 0] (m ((c : Thread nD τ).loc main_arg1)) slices_S2x600000_S1x600000_1_0) shapeCasts_S1x600000_S600000 :=
  (W2_of_ne m ρ c main_v3 (by decide)).trans (W1_v3 m ρ c)
theorem W2_v1 (c : Dev nD) : W2 m ρ c (Proc.devRef .tc main_v1) = srcFlat (m ((c : Thread nD τ).loc main_arg1)) :=
  (W2_of_ne m ρ c main_v1 (by decide)).trans (W1_v1 m ρ c)
theorem W2_v12 (c : Dev nD) : W2 m ρ c (Proc.devRef .tc main_v12) = invCol (m ((c : Thread nD τ).loc main_arg1)) :=
  (W2_of_ne m ρ c main_v12 (by decide)).trans (W1_v12 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)

end Cert.KernelIdeal.Hand

end
-- ==== Proof.KChain2.lean ====
/-
  The kernel program's run read as values, second part: the arrays the second pallas_call reads, and its outputs as
  functions of the arguments.
-/
import proofs.«143181_j4569845203115_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143181_j4569845203115_2_alg».proof.Proof.LibMatRead
import proofs.«143181_j4569845203115_2_alg».proof.Proof.SageSpec
import proofs.«143181_j4569845203115_2_alg».proof.Proof.SageAgg
import proofs.«143181_j4569845203115_2_alg».proof.Proof.KRegion1
import proofs.«143181_j4569845203115_2_alg».proof.Proof.KRegion2
import Idealize.ShloMosaic.Lib.StableHlo.Run
import proofs.«143181_j4569845203115_2_alg».proof.Proof.KChain

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg)

/-! ## Entering the second pallas_call -/

/-- The aggregated first projection, at an entry. -/
theorem V3_v23 (c : Dev nD) (n : Fin 100000) (k : Fin 64) :
    (V3 m ρ c main_v23 : S100000x64.Idx → EReal) (ix2 n k)
      = Ideal.ofBits .f32 0x00000000#32
        + Cert.Sage.agg (srcCol (m ((c : Thread nD τ).loc main_arg1))) (dstCol (m ((c : Thread nD τ).loc main_arg1))) (Cert.Sage.mm (m ((c : Thread nD τ).loc main_arg0)) (m ((c : Thread nD τ).loc main_arg2))) (ix2 n k) := by
  show StableHlo.after hostOps1 (W2 m ρ c) (Proc.devRef .tc main_v23) (ix2 n k) = _
  dsimp only [hostOps1]
  after_results
  rw [W2_v3, W2_v1, W2_v13_0]
  refine (Cert.Sage.host_scatter_gather_apply scatter_S100000x64_S600000x1_S600000x64_1_0_0_1
    gather_S100000x64_S600000x1_S600000x64_1_0_n_n_0_1_164 _ _ rfl rfl _ _ _ _ n k).trans ?_
  rfl
theorem V3_v13_1 (c : Dev nD) : V3 m ρ c main_v13_1 = Cert.Sage.mm (m ((c : Thread nD τ).loc main_arg0)) (m ((c : Thread nD τ).loc main_arg3)) := by
  show StableHlo.after hostOps1 (W2 m ρ c) (Proc.devRef .tc main_v13_1) = _
  dsimp only [hostOps1]
  after_results
  exact W2_v13_1 m ρ c
theorem V3_v12 (c : Dev nD) : V3 m ρ c main_v12 = invCol (m ((c : Thread nD τ).loc main_arg1)) := by
  show StableHlo.after hostOps1 (W2 m ρ c) (Proc.devRef .tc main_v12) = _
  dsimp only [hostOps1]
  after_results
  exact W2_v12 m ρ c
theorem V3_v24 (c : Dev nD) : V3 m ρ c main_v24 = shapeCast _ (m ((c : Thread nD τ).loc main_arg4)) shapeCasts_S64_S1x64 := by
  show StableHlo.after hostOps1 (W2 m ρ c) (Proc.devRef .tc main_v24) = _
  dsimp only [hostOps1]
  after_results
  rw [W2_arg4]
  rfl
theorem V3_arg5 (c : Dev nD) : V3 m ρ c main_arg5 = (m ((c : Thread nD τ).loc main_arg5)) := by
  show StableHlo.after hostOps1 (W2 m ρ c) (Proc.devRef .tc main_arg5) = _
  dsimp only [hostOps1]
  after_results
  exact W2_arg5 m ρ c
theorem V3_arg6 (c : Dev nD) : V3 m ρ c main_arg6 = (m ((c : Thread nD τ).loc main_arg6)) := by
  show StableHlo.after hostOps1 (W2 m ρ c) (Proc.devRef .tc main_arg6) = _
  dsimp only [hostOps1]
  after_results
  exact W2_arg6 m ρ c

/-- The in-degree clamped below by one, node by node. -/
def cden (x1 : (⟨S2x600000, .i32⟩ : BufTy).Contents (Elt Ideal)) : Fin 100000 → EReal := fun n => cntClamped x1 (ix1 n)

/-- A splat of a constant reads, at any index, the constant's value (for any pattern `b`, which is never evaluated). -/
theorem splat_apply {s : Shape} (h : S_.BroadcastsInDim s (![] : Fin 0 → Fin s.rank)) (b : BitVec FTy.f32.bits) (i : s.Idx) :
    broadcastInDim s ![] h (constant (F := Ideal) S_ .f32 b) i = Ideal.ofBits .f32 b := rfl

/-- The reciprocal in-degree column at row `n`. -/
theorem invCol_apply (x1 : (⟨S2x600000, .i32⟩ : BufTy).Contents (Elt Ideal)) (n : Fin 100000) :
    invCol x1 (ix2 n (0 : Fin 1)) = Ideal.div (Ideal.ofBits .f32 0x3F800000#32) (cden x1 n) := by
  unfold invCol
  refine (shapeCast_a_a1_apply (a := 100000) _ shapeCasts_S100000_S100000x1 n (0 : Fin 1)).trans ?_
  simp only [Host.divf, Ideal.hostDivf_def, splat_apply]
  rfl

theorem hidden_apply (S R : S100000x64.Idx → EReal) (INV : S100000x1.Idx → EReal) (B : S1x64.Idx → EReal)
    (n : Fin 100000) (k : Fin 64) :
    hidden S R INV B (ix2 n k)
      = max (S (ix2 n k) * INV (ix2 n (0 : Fin 1)) + R (ix2 n k) + B (ix2 (0 : Fin 1) k)) (Ideal.ofBits .f32 0x00000000#32) := rfl

theorem preOut_apply (S R : S100000x3.Idx → EReal) (INV : S100000x1.Idx → EReal) (B : S1x3.Idx → EReal)
    (n : Fin 100000) (k : Fin 3) :
    preOut S R INV B (ix2 n k) = S (ix2 n k) * INV (ix2 n (0 : Fin 1)) + R (ix2 n k) + B (ix2 (0 : Fin 1) k) := rfl

theorem kPre_apply {a b : Nat} (src dst : Cert.Sage.IdxCol) (cc : Fin 100000 → EReal) (h : Cert.Sage.Mat 100000 a)
    (Wl Wr : Cert.Sage.Mat a b) (bias : Fin b → EReal) (n : Fin 100000) (k : Fin b) :
    Cert.Sage.kPre src dst cc h Wl Wr bias (ix2 n k)
      = Cert.Sage.agg src dst (Cert.Sage.mm h Wl) (ix2 n k) * Ideal.div 1 (cc n) + Cert.Sage.mm h Wr (ix2 n k) + bias k := rfl

/-- The hidden activations the second pallas_call forms are the first layer, projecting first, under `max · 0`. -/
theorem hidden1_eq (c : Dev nD) :
    hidden (V3 m ρ c main_v23) (V3 m ρ c main_v13_1) (V3 m ρ c main_v12) (V3 m ρ c main_v24)
      = Cert.Sage.relu (Cert.Sage.kPre (srcCol (m ((c : Thread nD τ).loc main_arg1))) (dstCol (m ((c : Thread nD τ).loc main_arg1))) (cden (m ((c : Thread nD τ).loc main_arg1))) (m ((c : Thread nD τ).loc main_arg0)) (m ((c : Thread nD τ).loc main_arg2)) (m ((c : Thread nD τ).loc main_arg3))
          (fun k => (m ((c : Thread nD τ).loc main_arg4)) (ix1 k))) := by
  funext i
  obtain ⟨n, k, rfl⟩ : ∃ (n : Fin 100000) (k : Fin 64), i = ix2 n k := ⟨i 0, i 1, eq_ix2 i⟩
  rw [hidden_apply, V3_v23, V3_v13_1, V3_v12, V3_v24, invCol_apply, shapeCast_a_1a_apply]
  unfold Cert.Sage.relu
  rw [kPre_apply]
  simp only [Ideal.ofBits_zero_f32, zero_add, Cert.Sage.ofBits_one]

/-! ## After the second pallas_call -/

/-- The hidden activations as a function of the arguments. -/
def hid (c : Dev nD) : Cert.Sage.Mat 100000 64 :=
  Cert.Sage.relu (Cert.Sage.kPre (srcCol (m ((c : Thread nD τ).loc main_arg1))) (dstCol (m ((c : Thread nD τ).loc main_arg1))) (cden (m ((c : Thread nD τ).loc main_arg1))) (m ((c : Thread nD τ).loc main_arg0)) (m ((c : Thread nD τ).loc main_arg2)) (m ((c : Thread nD τ).loc main_arg3))
    (fun k => (m ((c : Thread nD τ).loc main_arg4)) (ix1 k)))

theorem W4_v25_0 (c : Dev nD) : W4 m ρ c (Proc.devRef .tc main_v25_0) = Cert.Sage.mm (hid m c) (m ((c : Thread nD τ).loc main_arg5)) := by
  refine (W4_arr m ρ c 6).trans ((final1_6 (V3 m ρ) c).trans ?_)
  rw [hidden1_eq, V3_arg5]
  rfl
theorem W4_v25_1 (c : Dev nD) : W4 m ρ c (Proc.devRef .tc main_v25_1) = Cert.Sage.mm (hid m c) (m ((c : Thread nD τ).loc main_arg6)) := by
  refine (W4_arr m ρ c 7).trans ((final1_7 (V3 m ρ) c).trans ?_)
  rw [hidden1_eq, V3_arg6]
  rfl
theorem W4_v3 (c : Dev nD) : W4 m ρ c (Proc.devRef .tc main_v3)
    = shapeCast _ (extractStridedSlice S1x600000 ![1, 0] (m ((c : Thread nD τ).loc main_arg1)) slices_S2x600000_S1x600000_1_0) shapeCasts_S1x600000_S600000 := by
  refine (W4_of_ne m ρ c main_v3 (by decide)).trans ?_
  show StableHlo.after hostOps1 (W2 m ρ c) (Proc.devRef .tc main_v3) = _
  dsimp only [hostOps1]
  after_results
  exact W2_v3 m ρ c
theorem W4_v1 (c : Dev nD) : W4 m ρ c (Proc.devRef .tc main_v1) = srcFlat (m ((c : Thread nD τ).loc main_arg1)) := by
  refine (W4_of_ne m ρ c main_v1 (by decide)).trans ?_
  show StableHlo.after hostOps1 (W2 m ρ c) (Proc.devRef .tc main_v1) = _
  dsimp only [hostOps1]
  after_results
  exact W2_v1 m ρ c
theorem W4_v12 (c : Dev nD) : W4 m ρ c (Proc.devRef .tc main_v12) = invCol (m ((c : Thread nD τ).loc main_arg1)) :=
  (W4_arr m ρ c 2).trans ((((dat1 (V3 m ρ) c).arrAt_in 2 rfl _).trans (A_eq1 (V3 m ρ) c 2)).trans (V3_v12 m ρ c))
theorem W4_arg7 (c : Dev nD) : W4 m ρ c (Proc.devRef .tc main_arg7) = (m ((c : Thread nD τ).loc main_arg7)) := by
  refine (W4_of_ne m ρ c main_arg7 (by decide)).trans ?_
  show StableHlo.after hostOps1 (W2 m ρ c) (Proc.devRef .tc main_arg7) = _
  dsimp only [hostOps1]
  after_results
  exact W2_arg7 m ρ c

end Cert.KernelIdeal.Hand

end
-- ==== Proof.KChain3.lean ====
/-
  The kernel program's run read as values, third part: the arrays the third pallas_call reads, and the program's
  result as one function of the arguments — the network with each layer projecting first.
-/
import proofs.«143181_j4569845203115_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143181_j4569845203115_2_alg».proof.Proof.LibMatRead
import proofs.«143181_j4569845203115_2_alg».proof.Proof.SageSpec
import proofs.«143181_j4569845203115_2_alg».proof.Proof.SageAgg
import proofs.«143181_j4569845203115_2_alg».proof.Proof.KRegion1
import proofs.«143181_j4569845203115_2_alg».proof.Proof.KRegion2
import Idealize.ShloMosaic.Lib.StableHlo.Run
import proofs.«143181_j4569845203115_2_alg».proof.Proof.KChain2

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg)

/-! ## Entering the third pallas_call -/

theorem V5_v35 (c : Dev nD) (n : Fin 100000) (k : Fin 3) :
    (V5 m ρ c main_v35 : S100000x3.Idx → EReal) (ix2 n k)
      = Ideal.ofBits .f32 0x00000000#32
        + Cert.Sage.agg (srcCol (m ((c : Thread nD τ).loc main_arg1))) (dstCol (m ((c : Thread nD τ).loc main_arg1))) (Cert.Sage.mm (hid m c) (m ((c : Thread nD τ).loc main_arg5))) (ix2 n k) := by
  show StableHlo.after hostOps2 (W4 m ρ c) (Proc.devRef .tc main_v35) (ix2 n k) = _
  dsimp only [hostOps2]
  after_results
  rw [W4_v3, W4_v1, W4_v25_0]
  refine (Cert.Sage.host_scatter_gather_apply scatter_S100000x3_S600000x1_S600000x3_1_0_0_1
    gather_S100000x3_S600000x1_S600000x3_1_0_n_n_0_1_13 _ _ rfl rfl _ _ _ _ n k).trans ?_
  rfl
theorem V5_v25_1 (c : Dev nD) : V5 m ρ c main_v25_1 = Cert.Sage.mm (hid m c) (m ((c : Thread nD τ).loc main_arg6)) := by
  show StableHlo.after hostOps2 (W4 m ρ c) (Proc.devRef .tc main_v25_1) = _
  dsimp only [hostOps2]
  after_results
  exact W4_v25_1 m ρ c
theorem V5_v12 (c : Dev nD) : V5 m ρ c main_v12 = invCol (m ((c : Thread nD τ).loc main_arg1)) := by
  show StableHlo.after hostOps2 (W4 m ρ c) (Proc.devRef .tc main_v12) = _
  dsimp only [hostOps2]
  after_results
  exact W4_v12 m ρ c
theorem V5_v36 (c : Dev nD) : V5 m ρ c main_v36 = shapeCast _ (m ((c : Thread nD τ).loc main_arg7)) shapeCasts_S3_S1x3 := by
  show StableHlo.after hostOps2 (W4 m ρ c) (Proc.devRef .tc main_v36) = _
  dsimp only [hostOps2]
  after_results
  rw [W4_arg7]
  rfl

/-- The pre-activation the third pallas_call forms is the second layer, projecting first, of the hidden activations. -/
theorem preOut2_eq (c : Dev nD) :
    preOut (V5 m ρ c main_v35) (V5 m ρ c main_v25_1) (V5 m ρ c main_v12) (V5 m ρ c main_v36)
      = Cert.Sage.kPre (srcCol (m ((c : Thread nD τ).loc main_arg1))) (dstCol (m ((c : Thread nD τ).loc main_arg1))) (cden (m ((c : Thread nD τ).loc main_arg1))) (hid m c) (m ((c : Thread nD τ).loc main_arg5)) (m ((c : Thread nD τ).loc main_arg6))
          (fun k => (m ((c : Thread nD τ).loc main_arg7)) (ix1 k)) := by
  funext i
  obtain ⟨n, k, rfl⟩ : ∃ (n : Fin 100000) (k : Fin 3), i = ix2 n k := ⟨i 0, i 1, eq_ix2 i⟩
  rw [preOut_apply, V5_v35, V5_v25_1, V5_v12, V5_v36, invCol_apply, shapeCast_a_1a_apply, kPre_apply]
  simp only [Ideal.ofBits_zero_f32, zero_add, Cert.Sage.ofBits_one]

/-- THE KERNEL PROGRAM'S RESULT: the network, each layer projecting first, of the arguments. -/
theorem result_value (c : Dev nD) :
    W6 m ρ c (Proc.devRef .tc main_v37)
      = Cert.Sage.lsm (Cert.Sage.kPre (srcCol (m ((c : Thread nD τ).loc main_arg1))) (dstCol (m ((c : Thread nD τ).loc main_arg1))) (cden (m ((c : Thread nD τ).loc main_arg1)))
          (Cert.Sage.relu (Cert.Sage.kPre (srcCol (m ((c : Thread nD τ).loc main_arg1))) (dstCol (m ((c : Thread nD τ).loc main_arg1))) (cden (m ((c : Thread nD τ).loc main_arg1))) (m ((c : Thread nD τ).loc main_arg0)) (m ((c : Thread nD τ).loc main_arg2)) (m ((c : Thread nD τ).loc main_arg3))
            (fun k => (m ((c : Thread nD τ).loc main_arg4)) (ix1 k))))
          (m ((c : Thread nD τ).loc main_arg5)) (m ((c : Thread nD τ).loc main_arg6)) (fun k => (m ((c : Thread nD τ).loc main_arg7)) (ix1 k))) := by
  refine (W6_arr m ρ c 4).trans ((final2_4 (V5 m ρ) c).trans ?_)
  rw [preOut2_eq]
  rfl

/-- The clamped in-degree is a nonzero real: a sum of ones, clamped below by one. -/
theorem cden_isNZReal (x1 : (⟨S2x600000, .i32⟩ : BufTy).Contents (Elt Ideal)) (n : Fin 100000) : Cert.Sage.IsNZReal (cden x1 n) := by
  have h : cden x1 n
      = max (Ideal.hostScatterAdd scatter_S100000_S600000x1_S600000_n_0_0_1
            (broadcastInDim S100000 ![] bcast_S_S100000 (constant (F := Ideal) S_ .f32 0x00000000#32)) (dstCol x1)
            (broadcastInDim S600000 ![] bcast_S_S600000 (constant (F := Ideal) S_ .f32 0x3F800000#32)) (ix1 n))
          (broadcastInDim S100000 ![] bcast_S_S100000 (constant (F := Ideal) S_ .f32 0x3F800000#32) (ix1 n)) := rfl
  rw [h, splat_apply, Cert.Sage.ofBits_one]
  refine Cert.Sage.isNZReal_max_one (Cert.Sage.isReal_hostScatterAdd _ _ _ _ (fun i => ?_) (fun j => ?_) _)
  · rw [splat_apply, Ideal.ofBits_zero_f32]; exact Cert.Sage.IsReal.zero
  · rw [splat_apply, Cert.Sage.ofBits_one]; exact Cert.Sage.IsReal.one

end Cert.KernelIdeal.Hand

end
-- ==== Proof.Finite.lean ====
/-
  From the finiteness precondition to real entries.

  The precondition compares, for each float argument `x`, `|x|` with `+∞` entrywise, reduces each comparison by `and`
  to one bit, and joins the seven bits by `and`.  On the extended reals `|x| = max x (-x)` is below `⊤` exactly when `x`
  is neither `⊤` nor `⊥`, that is, when `x` is (the coercion of) a real number.  So the predicate being 1 makes every
  entry of every float argument a real number.
-/
import Idealize.ShloMosaic.Lib.ReduceAll
import Idealize.ShloMosaic.Lib.ValueIdx
import proofs.«143181_j4569845203115_2_alg».proof.Pre_finite_inputs
import proofs.«143181_j4569845203115_2_alg».proof.Proof.SageAlgebra

noncomputable section

namespace Cert.Finite

open Idealize.ShloMosaic
open Cert.Sage (IsReal)

/-- The rank-0 shape has one index. -/
instance subsingleton_scalar_idx : Subsingleton (⟨0, ![]⟩ : Shape).Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` compares below `⊤` is a real number. -/
theorem isReal_of_abs_lt_top (x : EReal) (h : Ideal.cmp .olt (max x (-x)) ⊤ = 1#1) : IsReal x := by
  induction x using EReal.rec with
  | bot => simp [Ideal.cmp] at h
  | top => simp [Ideal.cmp] at h
  | coe r => exact ⟨r, rfl⟩

/-- One entry of the printed comparison `|x| < +∞` being 1 makes that entry of `x` a real number. -/
theorem isReal_of_lt_top_bit {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    IsReal (x i) := by
  refine isReal_of_abs_lt_top (x i) ?_
  rw [← ofBits_inf]
  exact h

/-- `jnp.all(|x| < +∞)` being 1 makes every entry of `x` a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi
        (cmpf .olt (Host.absf x) (broadcastInDim s ![] hb (constant (F := Ideal) ⟨0, ![]⟩ .f32 0x7F800000#32)))
        (constantI ⟨0, ![]⟩ 1 1#1) hr hu ValueIdx.ix0 = 1#1) (i : s.Idx) : IsReal (x i) :=
  isReal_of_lt_top_bit x hb i (Host.reduce_andi_all _ _ hr hu ValueIdx.ix0 h i)

open Cert.Pre_finite_inputs in
/-- The finiteness precondition being 1 makes every entry of every float argument a real number. -/
theorem inputs_real [hP : Cert.Pre_finite_inputs.Facts]
    (x0 : FVec Ideal Cert.Pre_finite_inputs.S100000x128 .f32) (x1 : IVec Cert.Pre_finite_inputs.S2x600000 32)
    (x2 x3 : FVec Ideal Cert.Pre_finite_inputs.S128x64 .f32) (x4 : FVec Ideal Cert.Pre_finite_inputs.S64 .f32)
    (x5 x6 : FVec Ideal Cert.Pre_finite_inputs.S64x3 .f32) (x7 : FVec Ideal Cert.Pre_finite_inputs.S3 .f32)
    (h : Cert.Pre_finite_inputs.fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) := by
  have h0 := congrFun h ValueIdx.ix0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real x0 _ _ _ e0, all_real x2 _ _ _ e2, all_real x3 _ _ _ e3, all_real x4 _ _ _ e4,
    all_real x5 _ _ _ e5, all_real x6 _ _ _ e6, all_real x7 _ _ _ e7⟩

end Cert.Finite

end
-- ==== Proof.LibAfterRead.lean ====
/-
  Reading a straight line of host operations one operation at a time.

  `after ops V` folds the operations' results over the contents `V`.  When every operation of the line writes exactly one
  reference and `wr` lists those references in order (`WritesAre`), the contents of a reference at the END of the line are
  already its contents after any prefix past which nothing writes it (`after_eq_take`), and the reference the `k`-th
  operation writes holds, at the end, that operation's result over the contents after the first `k` operations
  (`after_eq_result`).  Together: at the end of a line in which every reference is written at most once, before it is
  read, each result is its operation's function of the FINAL contents of its operands (`unary_at`, `binary_at`, …), so the
  line is read by a chain of small equations, none of which mentions a composed term.
-/
import Idealize.ShloMosaic.Lib.StableHlo.Run

noncomputable section

namespace Idealize.ShloMosaic.StableHlo

variable {τ : Topo} {sig : RefSig} {Val : EltTy → Type}

/-- A line run after another is the fold over both. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `wr` lists, in order, the one reference each operation of the line writes. -/
def WritesAre (ops : List (HloOp τ sig Val)) (wr : List (Ref sig .tc)) : Prop :=
  List.Forall₂ (fun op r => op.writes = {Proc.devRef (τ := τ) .tc r}) ops wr

/-- A reference the line never writes keeps its contents. -/
theorem after_eq_of_not_mem {ops : List (HloOp τ sig Val)} {wr : List (Ref sig .tc)} (h : WritesAre ops wr)
    {r : Ref sig .tc} (hr : r ∉ wr) (V : Valuation τ sig Val) :
    after ops V (Proc.devRef .tc r) = V (Proc.devRef .tc r) := by
  induction h generalizing V with
  | nil => rfl
  | @cons op y ops wr hop _ ih =>
    rw [after_cons, ih (fun hm => hr (List.mem_cons_of_mem _ hm)), HloOp.result_of_not_mem]
    rw [hop, Finset.mem_singleton]
    exact fun e => hr (Proc.devRef_injective _ e ▸ List.mem_cons_self)

/-- Past the last write of a reference, its contents are final. -/
theorem after_eq_take {ops : List (HloOp τ sig Val)} {wr : List (Ref sig .tc)} (h : WritesAre ops wr) (k : Nat)
    {r : Ref sig .tc} (hr : r ∉ wr.drop k) (V : Valuation τ sig Val) :
    after ops V (Proc.devRef .tc r) = after (ops.take k) V (Proc.devRef .tc r) := by
  conv_lhs => rw [← List.take_append_drop k ops, after_append]
  exact after_eq_of_not_mem (List.forall₂_drop k h) hr _

/-- The reference the `k`-th operation writes, if nothing later writes it, ends at that operation's result over the
    contents after the first `k` operations. -/
theorem after_eq_result {ops : List (HloOp τ sig Val)} {wr : List (Ref sig .tc)} (h : WritesAre ops wr) (k : Nat)
    {op : HloOp τ sig Val} (hk : ops[k]? = some op) {y : Ref sig .tc} (hy : y ∉ wr.drop (k + 1)) (V : Valuation τ sig Val) :
    after ops V (Proc.devRef .tc y) = op.result (after (ops.take k) V) (Proc.devRef .tc y) := by
  obtain ⟨hlt, rfl⟩ := List.getElem?_eq_some_iff.mp hk
  conv_lhs => rw [← List.take_append_drop k ops, after_append, List.drop_eq_getElem_cons hlt, after_cons]
  exact after_eq_of_not_mem (List.forall₂_drop (k + 1) h) hy _

section At

variable {ops : List (HloOp τ sig Val)} {wr : List (Ref sig .tc)} (h : WritesAre ops wr) (k : Nat) (V : Valuation τ sig Val)
include h

theorem nullary_at {y : Ref sig .tc} {v : y.ty.Contents Val} {hy}
    (hk : ops[k]? = some (nullary y v hy)) (hy' : y ∉ wr.drop (k + 1)) :
    after ops V (Proc.devRef .tc y) = v :=
  (after_eq_result h k hk hy' V).trans (nullary_result y v hy _)

theorem unary_at {x y : Ref sig .tc} {f : x.ty.Contents Val → y.ty.Contents Val} {hx hy}
    (hk : ops[k]? = some (unary x y f hx hy)) (hy' : y ∉ wr.drop (k + 1)) (hx' : x ∉ wr.drop k) :
    after ops V (Proc.devRef .tc y) = f (after ops V (Proc.devRef .tc x)) := by
  rw [after_eq_result h k hk hy' V, unary_result, ← after_eq_take h k hx' V]

theorem reshape_at {x y : Ref sig .tc} {he : x.ty.elt = y.ty.elt} {hn : x.ty.shape.ShapeCasts y.ty.shape} {hx hy}
    (hk : ops[k]? = some (reshape x y he hn hx hy)) (hy' : y ∉ wr.drop (k + 1)) (hx' : x ∉ wr.drop k) :
    after ops V (Proc.devRef .tc y) = fun i => he ▸ shapeCast y.ty.shape (after ops V (Proc.devRef .tc x)) hn i := by
  rw [after_eq_result h k hk hy' V, reshape_result, ← after_eq_take h k hx' V]

theorem binary_at {a b y : Ref sig .tc} {f : a.ty.Contents Val → b.ty.Contents Val → y.ty.Contents Val} {ha hb hy}
    (hk : ops[k]? = some (binary a b y f ha hb hy)) (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_eq_result h k hk hy' V, binary_result, ← after_eq_take h k ha' V, ← after_eq_take h k hb' V]

theorem ternary_at {c a b y : Ref sig .tc}
    {f : c.ty.Contents Val → a.ty.Contents Val → b.ty.Contents Val → y.ty.Contents Val} {hc ha hb hy}
    (hk : ops[k]? = some (ternary c a b y f hc ha hb hy)) (hy' : y ∉ wr.drop (k + 1)) (hc' : c ∉ wr.drop k)
    (ha' : a ∉ wr.drop k) (hb' : b ∉ wr.drop k) :
    after ops V (Proc.devRef .tc y)
      = f (after ops V (Proc.devRef .tc c)) (after ops V (Proc.devRef .tc a)) (after ops V (Proc.devRef .tc b)) := by
  rw [after_eq_result h k hk hy' V, ternary_result, ← after_eq_take h k hc' V, ← after_eq_take h k ha' V,
    ← after_eq_take h k hb' V]

end At

end Idealize.ShloMosaic.StableHlo

end
-- ==== Proof.RefStages.lean ====
/-
  The reference program's straight line read one operation at a time.

  `fin m c` is what device `c`'s buffers hold when the 84 operations have run from the launch contents `m`.  Every
  reference is written by exactly one operation (`writesAre`), after every operation that reads it, so at the end
  each result is its operation's function of the final contents of its operands (LibAfterRead.lean).  One lemma per
  operation, in program order, states that its result is the stage `val_<buffer>` of the arguments @main was launched
  with (RefReadP.lean); the last one is the program's result.  No lemma mentions a composed term.
-/
import proofs.«143181_j4569845203115_2_alg».proof.Proof.RefRunP
import proofs.«143181_j4569845203115_2_alg».proof.Proof.RefReadP
import proofs.«143181_j4569845203115_2_alg».proof.Proof.LibAfterRead

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The reference each of the 84 operations writes, in program order. -/
abbrev wr : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_call0_cst, main_call0_v0, main_v29, main_c_4, main_v30, main_v31, main_c_5, main_v32, main_v33, main_v34, main_v35, main_v36, main_cst_6, main_v37, main_v38, main_v39, main_cst_7, main_v40, main_cst_8, main_v41, main_v42, main_v43, main_cst_9, main_v44, main_v45, main_v46, main_v47, main_v48, main_v49, main_v50, main_v51, main_v52, main_v53, main_v54, main_call1_cst, main_call1_v0, main_call1_cst_0, main_call1_v1, main_call1_v2, main_call1_v3, main_call1_v4, main_call1_v5, main_call1_v6, main_call1_cst_1, main_call1_v7, main_call1_v8, main_call1_v9, main_call1_v10, main_v55]

/-- Operation `k` writes reference `k` of `wr`, and nothing else. -/
theorem writesAre : WritesAre (τ := τ) (ops (F := F)) wr :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

variable (m : (ℓ : Loc nD τ sig) → Buf (Elt F) ℓ) (c : Dev nD)

/-- The buffers of device `c` at the end of the line. -/
local notation "fin" => after (ops (F := F)) (launchContents m c)

/-- Argument 0 as launched. -/
abbrev arg0 : (⟨S100000x128, .f32⟩ : BufTy).Contents (Elt F) := m ((c.tc : Thread nD τ).loc main_arg0)
/-- Argument 1 as launched. -/
abbrev arg1 : (⟨S2x600000, .i32⟩ : BufTy).Contents (Elt F) := m ((c.tc : Thread nD τ).loc main_arg1)
/-- Argument 2 as launched. -/
abbrev arg2 : (⟨S128x64, .f32⟩ : BufTy).Contents (Elt F) := m ((c.tc : Thread nD τ).loc main_arg2)
/-- Argument 3 as launched. -/
abbrev arg3 : (⟨S128x64, .f32⟩ : BufTy).Contents (Elt F) := m ((c.tc : Thread nD τ).loc main_arg3)
/-- Argument 4 as launched. -/
abbrev arg4 : (⟨S64, .f32⟩ : BufTy).Contents (Elt F) := m ((c.tc : Thread nD τ).loc main_arg4)
/-- Argument 5 as launched. -/
abbrev arg5 : (⟨S64x3, .f32⟩ : BufTy).Contents (Elt F) := m ((c.tc : Thread nD τ).loc main_arg5)
/-- Argument 6 as launched. -/
abbrev arg6 : (⟨S64x3, .f32⟩ : BufTy).Contents (Elt F) := m ((c.tc : Thread nD τ).loc main_arg6)
/-- Argument 7 as launched. -/
abbrev arg7 : (⟨S3, .f32⟩ : BufTy).Contents (Elt F) := m ((c.tc : Thread nD τ).loc main_arg7)

/-! ### The arguments are never written -/

theorem fin_main_arg0 : fin (Proc.devRef .tc main_arg0) = arg0 m c :=
  after_eq_of_not_mem (writesAre (F := F)) (by decide) _
theorem fin_main_arg1 : fin (Proc.devRef .tc main_arg1) = arg1 m c :=
  after_eq_of_not_mem (writesAre (F := F)) (by decide) _
theorem fin_main_arg2 : fin (Proc.devRef .tc main_arg2) = arg2 m c :=
  after_eq_of_not_mem (writesAre (F := F)) (by decide) _
theorem fin_main_arg3 : fin (Proc.devRef .tc main_arg3) = arg3 m c :=
  after_eq_of_not_mem (writesAre (F := F)) (by decide) _
theorem fin_main_arg4 : fin (Proc.devRef .tc main_arg4) = arg4 m c :=
  after_eq_of_not_mem (writesAre (F := F)) (by decide) _
theorem fin_main_arg5 : fin (Proc.devRef .tc main_arg5) = arg5 m c :=
  after_eq_of_not_mem (writesAre (F := F)) (by decide) _
theorem fin_main_arg6 : fin (Proc.devRef .tc main_arg6) = arg6 m c :=
  after_eq_of_not_mem (writesAre (F := F)) (by decide) _
theorem fin_main_arg7 : fin (Proc.devRef .tc main_arg7) = arg7 m c :=
  after_eq_of_not_mem (writesAre (F := F)) (by decide) _

/-! ### One operation at a time -/

theorem fin_main_v0 : fin (Proc.devRef .tc main_v0) = val_main_v0 (F := F) (arg1 m c) := by
  have h := unary_at (writesAre (F := F)) 0 (launchContents m c) rfl (by decide) (by decide)
  rw [fin_main_arg1 m c] at h
  exact h

theorem fin_main_v1 : fin (Proc.devRef .tc main_v1) = val_main_v1 (F := F) (arg1 m c) := by
  have h := reshape_at (writesAre (F := F)) 1 (launchContents m c) rfl (by decide) (by decide)
  rw [fin_main_v0 m c] at h
  exact h

theorem fin_main_v2 : fin (Proc.devRef .tc main_v2) = val_main_v2 (F := F) (arg1 m c) := by
  have h := unary_at (writesAre (F := F)) 2 (launchContents m c) rfl (by decide) (by decide)
  rw [fin_main_arg1 m c] at h
  exact h

theorem fin_main_v3 : fin (Proc.devRef .tc main_v3) = val_main_v3 (F := F) (arg1 m c) := by
  have h := reshape_at (writesAre (F := F)) 3 (launchContents m c) rfl (by decide) (by decide)
  rw [fin_main_v2 m c] at h
  exact h

theorem fin_main_c : fin (Proc.devRef .tc main_c) = val_main_c (F := F) := by
  have h := nullary_at (writesAre (F := F)) 4 (launchContents m c) rfl (by decide)
  exact h

theorem fin_main_v4 : fin (Proc.devRef .tc main_v4) = val_main_v4 (F := F) := by
  have h := unary_at (writesAre (F := F)) 5 (launchContents m c) rfl (by decide) (by decide)
  rw [fin_main_c m c] at h
  exact h

theorem fin_main_v5 : fin (Proc.devRef .tc main_v5) = val_main_v5 (F := F) (arg1 m c) := by
  have h := binary_at (writesAre (F := F)) 6 (launchContents m c) rfl (by decide) (by decide) (by decide)
  rw [fin_main_v1 m c, fin_main_v4 m c] at h
  exact h

theorem fin_main_c_0 : fin (Proc.devRef .tc main_c_0) = val_main_c_0 (F := F) := by
  have h := nullary_at (writesAre (F := F)) 7 (launchContents m c) rfl (by decide)
  exact h

theorem fin_main_v6 : fin (Proc.devRef .tc main_v6) = val_main_v6 (F := F) := by
  have h := unary_at (writesAre (F := F)) 8 (launchContents m c) rfl (by decide) (by decide)
  rw [fin_main_c_0 m c] at h
  exact h

theorem fin_main_v7 : fin (Proc.devRef .tc main_v7) = val_main_v7 (F := F) (arg1 m c) := by
  have h := binary_at (writesAre (F := F)) 9 (launchContents m c) rfl (by decide) (by decide) (by decide)
  rw [fin_main_v1 m c, fin_main_v6 m c] at h
  exact h

theorem fin_main_v8 : fin (Proc.devRef .tc main_v8) = val_main_v8 (F := F) (arg1 m c) := by
  have h := ternary_at (writesAre (F := F)) 10 (launchContents m c) rfl (by decide) (by decide) (by decide) (by decide)
  rw [fin_main_v5 m c, fin_main_v7 m c, fin_main_v1 m c] at h
  exact h

theorem fin_main_v9 : fin (Proc.devRef .tc main_v9) = val_main_v9 (F := F) (arg1 m c) := by
  have h := unary_at (writesAre (F := F)) 11 (launchContents m c) rfl (by decide) (by decide)
  rw [fin_main_v8 m c] at h
  exact h

theorem fin_main_v10 : fin (Proc.devRef .tc main_v10) = val_main_v10 (F := F) (arg0 m c) (arg1 m c) := by
  have h := binary_at (writesAre (F := F)) 12 (launchContents m c) rfl (by decide) (by decide) (by decide)
  rw [fin_main_arg0 m c, fin_main_v9 m c] at h
  exact h

theorem fin_main_cst : fin (Proc.devRef .tc main_cst) = val_main_cst (F := F) := by
  have h := nullary_at (writesAre (F := F)) 13 (launchContents m c) rfl (by decide)
  exact h

theorem fin_main_v11 : fin (Proc.devRef .tc main_v11) = val_main_v11 (F := F) := by
  have h := unary_at (writesAre (F := F)) 14 (launchContents m c) rfl (by decide) (by decide)
  rw [fin_main_cst m c] at h
  exact h

theorem fin_main_v12 : fin (Proc.devRef .tc main_v12) = val_main_v12 (F := F) (arg1 m c) := by
  have h := unary_at (writesAre (F := F)) 15 (launchContents m c) rfl (by decide) (by decide)
  rw [fin_main_v3 m c] at h
  exact h

theorem fin_main_v13 : fin (Proc.devRef .tc main_v13) = val_main_v13 (F := F) (arg0 m c) (arg1 m c) := by
  have h := ternary_at (writesAre (F := F)) 16 (launchContents m c) rfl (by decide) (by decide) (by decide) (by decide)
  rw [fin_main_v11 m c, fin_main_v12 m c, fin_main_v10 m c] at h
  exact h

theorem fin_main_cst_1 : fin (Proc.devRef .tc main_cst_1) = val_main_cst_1 (F := F) := by
  have h := nullary_at (writesAre (F := F)) 17 (launchContents m c) rfl (by decide)
  exact h

theorem fin_main_v14 : fin (Proc.devRef .tc main_v14) = val_main_v14 (F := F) := by
  have h := unary_at (writesAre (F := F)) 18 (launchContents m c) rfl (by decide) (by decide)
  rw [fin_main_cst_1 m c] at h
  exact h

theorem fin_main_cst_2 : fin (Proc.devRef .tc main_cst_2) = val_main_cst_2 (F := F) := by
  have h := nullary_at (writesAre (F := F)) 19 (launchContents m c) rfl (by decide)
  exact h

theorem fin_main_v15 : fin (Proc.devRef .tc main_v15) = val_main_v15 (F := F) := by
  have h := unary_at (writesAre (F := F)) 20 (launchContents m c) rfl (by decide) (by decide)
  rw [fin_main_cst_2 m c] at h
  exact h

theorem fin_main_v16 : fin (Proc.devRef .tc main_v16) = val_main_v16 (F := F) (arg1 m c) := by
  have h := unary_at (writesAre (F := F)) 21 (launchContents m c) rfl (by decide) (by decide)
  rw [fin_main_v3 m c] at h
  exact h

theorem fin_main_v17 : fin (Proc.devRef .tc main_v17) = val_main_v17 (F := F) (arg1 m c) := by
  have h := ternary_at (writesAre (F := F)) 22 (launchContents m c) rfl (by decide) (by decide) (by decide) (by decide)
  rw [fin_main_v15 m c, fin_main_v16 m c, fin_main_v14 m c] at h
  exact h

theorem fin_main_cst_3 : fin (Proc.devRef .tc main_cst_3) = val_main_cst_3 (F := F) := by
  have h := nullary_at (writesAre (F := F)) 23 (launchContents m c) rfl (by decide)
  exact h

theorem fin_main_v18 : fin (Proc.devRef .tc main_v18) = val_main_v18 (F := F) := by
  have h := unary_at (writesAre (F := F)) 24 (launchContents m c) rfl (by decide) (by decide)
  rw [fin_main_cst_3 m c] at h
  exact h

theorem fin_main_v19 : fin (Proc.devRef .tc main_v19) = val_main_v19 (F := F) (arg1 m c) := by
  have h := binary_at (writesAre (F := F)) 25 (launchContents m c) rfl (by decide) (by decide) (by decide)
  rw [fin_main_v17 m c, fin_main_v18 m c] at h
  exact h

theorem fin_main_v20 : fin (Proc.devRef .tc main_v20) = val_main_v20 (F := F) (arg1 m c) := by
  have h := unary_at (writesAre (F := F)) 26 (launchContents m c) rfl (by decide) (by decide)
  rw [fin_main_v19 m c] at h
  exact h

theorem fin_main_v21 : fin (Proc.devRef .tc main_v21) = val_main_v21 (F := F) (arg1 m c) := by
  have h := unary_at (writesAre (F := F)) 27 (launchContents m c) rfl (by decide) (by decide)
  rw [fin_main_v20 m c] at h
  exact h

theorem fin_main_v22 : fin (Proc.devRef .tc main_v22) = val_main_v22 (F := F) (arg0 m c) (arg1 m c) := by
  have h := binary_at (writesAre (F := F)) 28 (launchContents m c) rfl (by decide) (by decide) (by decide)
  rw [fin_main_v13 m c, fin_main_v21 m c] at h
  exact h

theorem fin_main_v23 : fin (Proc.devRef .tc main_v23) = val_main_v23 (F := F) (arg0 m c) (arg1 m c) (arg2 m c) := by
  have h := binary_at (writesAre (F := F)) 29 (launchContents m c) rfl (by decide) (by decide) (by decide)
  rw [fin_main_v22 m c, fin_main_arg2 m c] at h
  exact h

theorem fin_main_v24 : fin (Proc.devRef .tc main_v24) = val_main_v24 (F := F) (arg0 m c) (arg3 m c) := by
  have h := binary_at (writesAre (F := F)) 30 (launchContents m c) rfl (by decide) (by decide) (by decide)
  rw [fin_main_arg0 m c, fin_main_arg3 m c] at h
  exact h

theorem fin_main_v25 : fin (Proc.devRef .tc main_v25) = val_main_v25 (F := F) (arg0 m c) (arg1 m c) (arg2 m c) (arg3 m c) := by
  have h := binary_at (writesAre (F := F)) 31 (launchContents m c) rfl (by decide) (by decide) (by decide)
  rw [fin_main_v23 m c, fin_main_v24 m c] at h
  exact h

theorem fin_main_v26 : fin (Proc.devRef .tc main_v26) = val_main_v26 (F := F) (arg4 m c) := by
  have h := unary_at (writesAre (F := F)) 32 (launchContents m c) rfl (by decide) (by decide)
  rw [fin_main_arg4 m c] at h
  exact h

theorem fin_main_v27 : fin (Proc.devRef .tc main_v27) = val_main_v27 (F := F) (arg4 m c) := by
  have h := unary_at (writesAre (F := F)) 33 (launchContents m c) rfl (by decide) (by decide)
  rw [fin_main_v26 m c] at h
  exact h

theorem fin_main_v28 : fin (Proc.devRef .tc main_v28) = val_main_v28 (F := F) (arg0 m c) (arg1 m c) (arg2 m c) (arg3 m c) (arg4 m c) := by
  have h := binary_at (writesAre (F := F)) 34 (launchContents m c) rfl (by decide) (by decide) (by decide)
  rw [fin_main_v25 m c, fin_main_v27 m c] at h
  exact h

theorem fin_main_call0_cst : fin (Proc.devRef .tc main_call0_cst) = val_main_call0_cst (F := F) := by
  have h := nullary_at (writesAre (F := F)) 35 (launchContents m c) rfl (by decide)
  simp only [TRef.toBuf, TRef.ofBuf, cast_eq] at h
  exact h

theorem fin_main_call0_v0 : fin (Proc.devRef .tc main_call0_v0) = val_main_call0_v0 (F := F) := by
  have h := unary_at (writesAre (F := F)) 36 (launchContents m c) rfl (by decide) (by decide)
  rw [fin_main_call0_cst m c] at h
  simp only [TRef.toBuf, TRef.ofBuf, cast_eq] at h
  exact h

theorem fin_main_v29 : fin (Proc.devRef .tc main_v29) = val_main_v29 (F := F) (arg0 m c) (arg1 m c) (arg2 m c) (arg3 m c) (arg4 m c) := by
  have h := binary_at (writesAre (F := F)) 37 (launchContents m c) rfl (by decide) (by decide) (by decide)
  rw [fin_main_v28 m c, fin_main_call0_v0 m c] at h
  simp only [TRef.toBuf, TRef.ofBuf, cast_eq] at h
  exact h

theorem fin_main_c_4 : fin (Proc.devRef .tc main_c_4) = val_main_c_4 (F := F) := by
  have h := nullary_at (writesAre (F := F)) 38 (launchContents m c) rfl (by decide)
  exact h

theorem fin_main_v30 : fin (Proc.devRef .tc main_v30) = val_main_v30 (F := F) := by
  have h := unary_at (writesAre (F := F)) 39 (launchContents m c) rfl (by decide) (by decide)
  rw [fin_main_c_4 m c] at h
  exact h

theorem fin_main_v31 : fin (Proc.devRef .tc main_v31) = val_main_v31 (F := F) (arg1 m c) := by
  have h := binary_at (writesAre (F := F)) 40 (launchContents m c) rfl (by decide) (by decide) (by decide)
  rw [fin_main_v1 m c, fin_main_v30 m c] at h
  exact h

theorem fin_main_c_5 : fin (Proc.devRef .tc main_c_5) = val_main_c_5 (F := F) := by
  have h := nullary_at (writesAre (F := F)) 41 (launchContents m c) rfl (by decide)
  exact h

theorem fin_main_v32 : fin (Proc.devRef .tc main_v32) = val_main_v32 (F := F) := by
  have h := unary_at (writesAre (F := F)) 42 (launchContents m c) rfl (by decide) (by decide)
  rw [fin_main_c_5 m c] at h
  exact h

theorem fin_main_v33 : fin (Proc.devRef .tc main_v33) = val_main_v33 (F := F) (arg1 m c) := by
  have h := binary_at (writesAre (F := F)) 43 (launchContents m c) rfl (by decide) (by decide) (by decide)
  rw [fin_main_v1 m c, fin_main_v32 m c] at h
  exact h

theorem fin_main_v34 : fin (Proc.devRef .tc main_v34) = val_main_v34 (F := F) (arg1 m c) := by
  have h := ternary_at (writesAre (F := F)) 44 (launchContents m c) rfl (by decide) (by decide) (by decide) (by decide)
  rw [fin_main_v31 m c, fin_main_v33 m c, fin_main_v1 m c] at h
  exact h

theorem fin_main_v35 : fin (Proc.devRef .tc main_v35) = val_main_v35 (F := F) (arg1 m c) := by
  have h := unary_at (writesAre (F := F)) 45 (launchContents m c) rfl (by decide) (by decide)
  rw [fin_main_v34 m c] at h
  exact h

theorem fin_main_v36 : fin (Proc.devRef .tc main_v36) = val_main_v36 (F := F) (arg0 m c) (arg1 m c) (arg2 m c) (arg3 m c) (arg4 m c) := by
  have h := binary_at (writesAre (F := F)) 46 (launchContents m c) rfl (by decide) (by decide) (by decide)
  rw [fin_main_v29 m c, fin_main_v35 m c] at h
  exact h

theorem fin_main_cst_6 : fin (Proc.devRef .tc main_cst_6) = val_main_cst_6 (F := F) := by
  have h := nullary_at (writesAre (F := F)) 47 (launchContents m c) rfl (by decide)
  exact h

theorem fin_main_v37 : fin (Proc.devRef .tc main_v37) = val_main_v37 (F := F) := by
  have h := unary_at (writesAre (F := F)) 48 (launchContents m c) rfl (by decide) (by decide)
  rw [fin_main_cst_6 m c] at h
  exact h

theorem fin_main_v38 : fin (Proc.devRef .tc main_v38) = val_main_v38 (F := F) (arg1 m c) := by
  have h := unary_at (writesAre (F := F)) 49 (launchContents m c) rfl (by decide) (by decide)
  rw [fin_main_v3 m c] at h
  exact h

theorem fin_main_v39 : fin (Proc.devRef .tc main_v39) = val_main_v39 (F := F) (arg0 m c) (arg1 m c) (arg2 m c) (arg3 m c) (arg4 m c) := by
  have h := ternary_at (writesAre (F := F)) 50 (launchContents m c) rfl (by decide) (by decide) (by decide) (by decide)
  rw [fin_main_v37 m c, fin_main_v38 m c, fin_main_v36 m c] at h
  exact h

theorem fin_main_cst_7 : fin (Proc.devRef .tc main_cst_7) = val_main_cst_7 (F := F) := by
  have h := nullary_at (writesAre (F := F)) 51 (launchContents m c) rfl (by decide)
  exact h

theorem fin_main_v40 : fin (Proc.devRef .tc main_v40) = val_main_v40 (F := F) := by
  have h := unary_at (writesAre (F := F)) 52 (launchContents m c) rfl (by decide) (by decide)
  rw [fin_main_cst_7 m c] at h
  exact h

theorem fin_main_cst_8 : fin (Proc.devRef .tc main_cst_8) = val_main_cst_8 (F := F) := by
  have h := nullary_at (writesAre (F := F)) 53 (launchContents m c) rfl (by decide)
  exact h

theorem fin_main_v41 : fin (Proc.devRef .tc main_v41) = val_main_v41 (F := F) := by
  have h := unary_at (writesAre (F := F)) 54 (launchContents m c) rfl (by decide) (by decide)
  rw [fin_main_cst_8 m c] at h
  exact h

theorem fin_main_v42 : fin (Proc.devRef .tc main_v42) = val_main_v42 (F := F) (arg1 m c) := by
  have h := unary_at (writesAre (F := F)) 55 (launchContents m c) rfl (by decide) (by decide)
  rw [fin_main_v3 m c] at h
  exact h

theorem fin_main_v43 : fin (Proc.devRef .tc main_v43) = val_main_v43 (F := F) (arg1 m c) := by
  have h := ternary_at (writesAre (F := F)) 56 (launchContents m c) rfl (by decide) (by decide) (by decide) (by decide)
  rw [fin_main_v41 m c, fin_main_v42 m c, fin_main_v40 m c] at h
  exact h

theorem fin_main_cst_9 : fin (Proc.devRef .tc main_cst_9) = val_main_cst_9 (F := F) := by
  have h := nullary_at (writesAre (F := F)) 57 (launchContents m c) rfl (by decide)
  exact h

theorem fin_main_v44 : fin (Proc.devRef .tc main_v44) = val_main_v44 (F := F) := by
  have h := unary_at (writesAre (F := F)) 58 (launchContents m c) rfl (by decide) (by decide)
  rw [fin_main_cst_9 m c] at h
  exact h

theorem fin_main_v45 : fin (Proc.devRef .tc main_v45) = val_main_v45 (F := F) (arg1 m c) := by
  have h := binary_at (writesAre (F := F)) 59 (launchContents m c) rfl (by decide) (by decide) (by decide)
  rw [fin_main_v43 m c, fin_main_v44 m c] at h
  exact h

theorem fin_main_v46 : fin (Proc.devRef .tc main_v46) = val_main_v46 (F := F) (arg1 m c) := by
  have h := unary_at (writesAre (F := F)) 60 (launchContents m c) rfl (by decide) (by decide)
  rw [fin_main_v45 m c] at h
  exact h

theorem fin_main_v47 : fin (Proc.devRef .tc main_v47) = val_main_v47 (F := F) (arg1 m c) := by
  have h := unary_at (writesAre (F := F)) 61 (launchContents m c) rfl (by decide) (by decide)
  rw [fin_main_v46 m c] at h
  exact h

theorem fin_main_v48 : fin (Proc.devRef .tc main_v48) = val_main_v48 (F := F) (arg0 m c) (arg1 m c) (arg2 m c) (arg3 m c) (arg4 m c) := by
  have h := binary_at (writesAre (F := F)) 62 (launchContents m c) rfl (by decide) (by decide) (by decide)
  rw [fin_main_v39 m c, fin_main_v47 m c] at h
  exact h

theorem fin_main_v49 : fin (Proc.devRef .tc main_v49) = val_main_v49 (F := F) (arg0 m c) (arg1 m c) (arg2 m c) (arg3 m c) (arg4 m c) (arg5 m c) := by
  have h := binary_at (writesAre (F := F)) 63 (launchContents m c) rfl (by decide) (by decide) (by decide)
  rw [fin_main_v48 m c, fin_main_arg5 m c] at h
  exact h

theorem fin_main_v50 : fin (Proc.devRef .tc main_v50) = val_main_v50 (F := F) (arg0 m c) (arg1 m c) (arg2 m c) (arg3 m c) (arg4 m c) (arg6 m c) := by
  have h := binary_at (writesAre (F := F)) 64 (launchContents m c) rfl (by decide) (by decide) (by decide)
  rw [fin_main_v29 m c, fin_main_arg6 m c] at h
  exact h

theorem fin_main_v51 : fin (Proc.devRef .tc main_v51) = val_main_v51 (F := F) (arg0 m c) (arg1 m c) (arg2 m c) (arg3 m c) (arg4 m c) (arg5 m c) (arg6 m c) := by
  have h := binary_at (writesAre (F := F)) 65 (launchContents m c) rfl (by decide) (by decide) (by decide)
  rw [fin_main_v49 m c, fin_main_v50 m c] at h
  exact h

theorem fin_main_v52 : fin (Proc.devRef .tc main_v52) = val_main_v52 (F := F) (arg7 m c) := by
  have h := unary_at (writesAre (F := F)) 66 (launchContents m c) rfl (by decide) (by decide)
  rw [fin_main_arg7 m c] at h
  exact h

theorem fin_main_v53 : fin (Proc.devRef .tc main_v53) = val_main_v53 (F := F) (arg7 m c) := by
  have h := unary_at (writesAre (F := F)) 67 (launchContents m c) rfl (by decide) (by decide)
  rw [fin_main_v52 m c] at h
  exact h

theorem fin_main_v54 : fin (Proc.devRef .tc main_v54) = val_main_v54 (F := F) (arg0 m c) (arg1 m c) (arg2 m c) (arg3 m c) (arg4 m c) (arg5 m c) (arg6 m c) (arg7 m c) := by
  have h := binary_at (writesAre (F := F)) 68 (launchContents m c) rfl (by decide) (by decide) (by decide)
  rw [fin_main_v51 m c, fin_main_v53 m c] at h
  exact h

theorem fin_main_call1_cst : fin (Proc.devRef .tc main_call1_cst) = val_main_call1_cst (F := F) := by
  have h := nullary_at (writesAre (F := F)) 69 (launchContents m c) rfl (by decide)
  simp only [TRef.toBuf, TRef.ofBuf, cast_eq] at h
  exact h

theorem fin_main_call1_v0 : fin (Proc.devRef .tc main_call1_v0) = val_main_call1_v0 (F := F) (arg0 m c) (arg1 m c) (arg2 m c) (arg3 m c) (arg4 m c) (arg5 m c) (arg6 m c) (arg7 m c) := by
  have h := binary_at (writesAre (F := F)) 70 (launchContents m c) rfl (by decide) (by decide) (by decide)
  rw [fin_main_v54 m c, fin_main_call1_cst m c] at h
  simp only [TRef.toBuf, TRef.ofBuf, cast_eq] at h
  exact h

theorem fin_main_call1_cst_0 : fin (Proc.devRef .tc main_call1_cst_0) = val_main_call1_cst_0 (F := F) := by
  have h := nullary_at (writesAre (F := F)) 71 (launchContents m c) rfl (by decide)
  simp only [TRef.toBuf, TRef.ofBuf, cast_eq] at h
  exact h

theorem fin_main_call1_v1 : fin (Proc.devRef .tc main_call1_v1) = val_main_call1_v1 (F := F) := by
  have h := unary_at (writesAre (F := F)) 72 (launchContents m c) rfl (by decide) (by decide)
  rw [fin_main_call1_cst_0 m c] at h
  simp only [TRef.toBuf, TRef.ofBuf, cast_eq] at h
  exact h

theorem fin_main_call1_v2 : fin (Proc.devRef .tc main_call1_v2) = val_main_call1_v2 (F := F) (arg0 m c) (arg1 m c) (arg2 m c) (arg3 m c) (arg4 m c) (arg5 m c) (arg6 m c) (arg7 m c) := by
  have h := binary_at (writesAre (F := F)) 73 (launchContents m c) rfl (by decide) (by decide) (by decide)
  rw [fin_main_call1_v1 m c, fin_main_call1_v0 m c] at h
  simp only [TRef.toBuf, TRef.ofBuf, cast_eq] at h
  exact h

theorem fin_main_call1_v3 : fin (Proc.devRef .tc main_call1_v3) = val_main_call1_v3 (F := F) (arg0 m c) (arg1 m c) (arg2 m c) (arg3 m c) (arg4 m c) (arg5 m c) (arg6 m c) (arg7 m c) := by
  have h := unary_at (writesAre (F := F)) 74 (launchContents m c) rfl (by decide) (by decide)
  rw [fin_main_call1_v2 m c] at h
  simp only [TRef.toBuf, TRef.ofBuf, cast_eq] at h
  exact h

theorem fin_main_call1_v4 : fin (Proc.devRef .tc main_call1_v4) = val_main_call1_v4 (F := F) (arg0 m c) (arg1 m c) (arg2 m c) (arg3 m c) (arg4 m c) (arg5 m c) (arg6 m c) (arg7 m c) := by
  have h := unary_at (writesAre (F := F)) 75 (launchContents m c) rfl (by decide) (by decide)
  rw [fin_main_call1_v3 m c] at h
  simp only [TRef.toBuf, TRef.ofBuf, cast_eq] at h
  exact h

theorem fin_main_call1_v5 : fin (Proc.devRef .tc main_call1_v5) = val_main_call1_v5 (F := F) (arg0 m c) (arg1 m c) (arg2 m c) (arg3 m c) (arg4 m c) (arg5 m c) (arg6 m c) (arg7 m c) := by
  have h := binary_at (writesAre (F := F)) 76 (launchContents m c) rfl (by decide) (by decide) (by decide)
  rw [fin_main_v54 m c, fin_main_call1_v4 m c] at h
  simp only [TRef.toBuf, TRef.ofBuf, cast_eq] at h
  exact h

theorem fin_main_call1_v6 : fin (Proc.devRef .tc main_call1_v6) = val_main_call1_v6 (F := F) (arg0 m c) (arg1 m c) (arg2 m c) (arg3 m c) (arg4 m c) (arg5 m c) (arg6 m c) (arg7 m c) := by
  have h := unary_at (writesAre (F := F)) 77 (launchContents m c) rfl (by decide) (by decide)
  rw [fin_main_call1_v5 m c] at h
  simp only [TRef.toBuf, TRef.ofBuf, cast_eq] at h
  exact h

theorem fin_main_call1_cst_1 : fin (Proc.devRef .tc main_call1_cst_1) = val_main_call1_cst_1 (F := F) := by
  have h := nullary_at (writesAre (F := F)) 78 (launchContents m c) rfl (by decide)
  simp only [TRef.toBuf, TRef.ofBuf, cast_eq] at h
  exact h

theorem fin_main_call1_v7 : fin (Proc.devRef .tc main_call1_v7) = val_main_call1_v7 (F := F) (arg0 m c) (arg1 m c) (arg2 m c) (arg3 m c) (arg4 m c) (arg5 m c) (arg6 m c) (arg7 m c) := by
  have h := binary_at (writesAre (F := F)) 79 (launchContents m c) rfl (by decide) (by decide) (by decide)
  rw [fin_main_call1_v6 m c, fin_main_call1_cst_1 m c] at h
  simp only [TRef.toBuf, TRef.ofBuf, cast_eq] at h
  exact h

theorem fin_main_call1_v8 : fin (Proc.devRef .tc main_call1_v8) = val_main_call1_v8 (F := F) (arg0 m c) (arg1 m c) (arg2 m c) (arg3 m c) (arg4 m c) (arg5 m c) (arg6 m c) (arg7 m c) := by
  have h := unary_at (writesAre (F := F)) 80 (launchContents m c) rfl (by decide) (by decide)
  rw [fin_main_call1_v7 m c] at h
  simp only [TRef.toBuf, TRef.ofBuf, cast_eq] at h
  exact h

theorem fin_main_call1_v9 : fin (Proc.devRef .tc main_call1_v9) = val_main_call1_v9 (F := F) (arg0 m c) (arg1 m c) (arg2 m c) (arg3 m c) (arg4 m c) (arg5 m c) (arg6 m c) (arg7 m c) := by
  have h := unary_at (writesAre (F := F)) 81 (launchContents m c) rfl (by decide) (by decide)
  rw [fin_main_call1_v8 m c] at h
  simp only [TRef.toBuf, TRef.ofBuf, cast_eq] at h
  exact h

theorem fin_main_call1_v10 : fin (Proc.devRef .tc main_call1_v10) = val_main_call1_v10 (F := F) (arg0 m c) (arg1 m c) (arg2 m c) (arg3 m c) (arg4 m c) (arg5 m c) (arg6 m c) (arg7 m c) := by
  have h := unary_at (writesAre (F := F)) 82 (launchContents m c) rfl (by decide) (by decide)
  rw [fin_main_call1_v9 m c] at h
  simp only [TRef.toBuf, TRef.ofBuf, cast_eq] at h
  exact h

theorem fin_main_v55 : fin (Proc.devRef .tc main_v55) = val_main_v55 (F := F) (arg0 m c) (arg1 m c) (arg2 m c) (arg3 m c) (arg4 m c) (arg5 m c) (arg6 m c) (arg7 m c) := by
  have h := binary_at (writesAre (F := F)) 83 (launchContents m c) rfl (by decide) (by decide) (by decide)
  rw [fin_main_call1_v5 m c, fin_main_call1_v10 m c] at h
  simp only [TRef.toBuf, TRef.ofBuf, cast_eq] at h
  exact h

end Cert.ReferenceIdeal.Hand

end
-- ==== Proof.RefLayers.lean ====
/-
  The reference program's stages, read at an index, are the two-layer mean-aggregation network.

  The stages `val_<buffer>` (RefReadP.lean) are the reference's operations as functions of @main's arguments.  Here they
  are followed from the arguments to the result: the gather of the source rows scattered and added at the destination
  rows is the aggregate `Cert.Sage.agg`; divided by the clamped in-degree and projected, plus the root projection and the
  bias, it is a layer `Cert.Sage.rPre`; the `max · 0` between the layers is `Cert.Sage.relu`; and the last eleven
  operations are the row-wise log-softmax `Cert.Sage.lsm`, whose row maximum is the fold the `stablehlo.reduce` computes.
  Every step reads one element; nothing is assumed finite.
-/
import proofs.«143181_j4569845203115_2_alg».proof.Proof.RefReadP
import proofs.«143181_j4569845203115_2_alg».proof.Proof.SageSpec
import proofs.«143181_j4569845203115_2_alg».proof.Proof.SageAgg

noncomputable section

open scoped BigOperators

namespace Cert.ReferenceIdeal.Hand

open Cert.ReferenceIdeal Cert.ReferenceIdeal.Gen Cert.ReferenceIdeal.ReadP Idealize.ShloMosaic Idealize.ShloMosaic.ValueIdx
  Idealize.ShloMosaic.RowOps Cert.Sage

/-- The reference's normalised source column `main_v9`, as a term of the edge array. -/
def srcCol (x1 : (⟨S2x600000, .i32⟩ : BufTy).Contents (Elt Ideal)) : Cert.Sage.IdxCol := val_main_v9 (F := Ideal) x1
/-- The reference's destination column `main_v12`, as a term of the edge array. -/
def dstCol (x1 : (⟨S2x600000, .i32⟩ : BufTy).Contents (Elt Ideal)) : Cert.Sage.IdxCol := val_main_v12 (F := Ideal) x1
/-- The reference's clamped in-degree `main_v19`, as a term of the edge array. -/
def cden (x1 : (⟨S2x600000, .i32⟩ : BufTy).Contents (Elt Ideal)) : Fin 100000 → EReal :=
  fun n => val_main_v19 (F := Ideal) x1 (ix1 n)

/-- A layer aggregating first, at row `n` and column `j`. -/
theorem rPre_at {a b : Nat} (src dst : IdxCol) (c : Fin 100000 → EReal) (h : Mat 100000 a) (Wl Wr : Mat a b)
    (bias : Fin b → EReal) (n : Fin 100000) (j : Fin b) :
    rPre src dst c h Wl Wr bias (ix2 n j)
      = (∑ q : Fin a, Ideal.div (agg src dst h (ix2 n q)) (c n) * Wl (ix2 q j)) + (∑ q : Fin a, h (ix2 n q) * Wr (ix2 q j))
        + bias j := rfl

/-! ## Layer one -/

theorem zero_v11 (i : S100000x128.Idx) : val_main_v11 (F := Ideal) i = 0 := by
  rw [val_main_v11_apply, val_main_cst_apply]; exact Ideal.ofBits_zero_f32

theorem v13_at (x0 : (⟨S100000x128, .f32⟩ : BufTy).Contents (Elt Ideal)) (x1 : (⟨S2x600000, .i32⟩ : BufTy).Contents (Elt Ideal)) (n : Fin 100000) (k : Fin 128) :
    val_main_v13 (F := Ideal) x0 x1 (ix2 n k) = agg (srcCol x1) (dstCol x1) x0 (ix2 n k) := by
  unfold val_main_v13 val_main_v10
  refine (Cert.Sage.host_scatter_gather_apply (d := 128) _ _ scatter_S100000x128_S600000x1_S600000x128_1_0_0_1_wf
    gather_S100000x128_S600000x1_S600000x128_1_0_n_n_0_1_1128_wf rfl rfl (val_main_v11 (F := Ideal)) (srcCol x1) (dstCol x1)
    x0 n k).trans ?_
  rw [zero_v11, zero_add]

theorem den_v21 (x1 : (⟨S2x600000, .i32⟩ : BufTy).Contents (Elt Ideal)) (n : Fin 100000) (k : Fin 128) :
    val_main_v21 (F := Ideal) x1 (ix2 n k) = cden x1 n := by
  rw [val_main_v21_apply, val_main_v20_apply]
  exact congrArg (val_main_v19 (F := Ideal) x1) (funext fun a => by match a with | ⟨0, _⟩ => rfl)

theorem v22_at (x0 : (⟨S100000x128, .f32⟩ : BufTy).Contents (Elt Ideal)) (x1 : (⟨S2x600000, .i32⟩ : BufTy).Contents (Elt Ideal)) (n : Fin 100000) (k : Fin 128) :
    val_main_v22 (F := Ideal) x0 x1 (ix2 n k) = Ideal.div (agg (srcCol x1) (dstCol x1) x0 (ix2 n k)) (cden x1 n) := by
  rw [val_main_v22_apply, v13_at, den_v21]; rfl

theorem lidx23 (n : Fin 100000) (j : Fin 64) (k : Fin 128) : lidx_main_v23 (ix2 n j) k = ix2 n k :=
  funext fun a => by match a with | ⟨0, _⟩ => rfl | ⟨1, _⟩ => rfl
theorem ridx23 (n : Fin 100000) (j : Fin 64) (k : Fin 128) : ridx_main_v23 (ix2 n j) k = ix2 k j :=
  funext fun a => by match a with | ⟨0, _⟩ => rfl | ⟨1, _⟩ => rfl
theorem lidx24 (n : Fin 100000) (j : Fin 64) (k : Fin 128) : lidx_main_v24 (ix2 n j) k = ix2 n k :=
  funext fun a => by match a with | ⟨0, _⟩ => rfl | ⟨1, _⟩ => rfl
theorem ridx24 (n : Fin 100000) (j : Fin 64) (k : Fin 128) : ridx_main_v24 (ix2 n j) k = ix2 k j :=
  funext fun a => by match a with | ⟨0, _⟩ => rfl | ⟨1, _⟩ => rfl

theorem bias_v27 (x4 : (⟨S64, .f32⟩ : BufTy).Contents (Elt Ideal)) (n : Fin 100000) (j : Fin 64) :
    val_main_v27 (F := Ideal) x4 (ix2 n j) = x4 (ix1 j) := by
  rw [val_main_v27_apply, val_main_v26_apply]
  exact congrArg x4 (funext fun a => by match a with | ⟨0, _⟩ => rfl)

/-- The first layer before its `max · 0`. -/
theorem v28_eq (x0 : (⟨S100000x128, .f32⟩ : BufTy).Contents (Elt Ideal)) (x1 : (⟨S2x600000, .i32⟩ : BufTy).Contents (Elt Ideal)) (x2 x3 : (⟨S128x64, .f32⟩ : BufTy).Contents (Elt Ideal)) (x4 : (⟨S64, .f32⟩ : BufTy).Contents (Elt Ideal)) :
    val_main_v28 (F := Ideal) x0 x1 x2 x3 x4
      = rPre (srcCol x1) (dstCol x1) (cden x1) x0 x2 x3 (fun k => x4 (ix1 k)) := by
  funext i
  obtain ⟨n, j, rfl⟩ : ∃ (n : Fin 100000) (j : Fin 64), i = ix2 n j := ⟨i 0, i 1, eq_ix2 i⟩
  rw [val_main_v28_apply, val_main_v25_apply, val_main_v23_apply, val_main_v24_apply, bias_v27, rPre_at]
  refine congrArg₂ (· + ·) (congrArg₂ (· + ·) ?_ ?_) rfl
  · refine Finset.sum_congr rfl fun k _ => ?_
    rw [lidx23, ridx23, v22_at]
  · refine Finset.sum_congr rfl fun k _ => ?_
    rw [lidx24, ridx24]

theorem zero_call0_v0 (i : S100000x64.Idx) : val_main_call0_v0 (F := Ideal) i = 0 := by
  rw [val_main_call0_v0_apply, val_main_call0_cst_apply]; exact Ideal.ofBits_zero_f32

/-- The first layer. -/
theorem v29_eq (x0 : (⟨S100000x128, .f32⟩ : BufTy).Contents (Elt Ideal)) (x1 : (⟨S2x600000, .i32⟩ : BufTy).Contents (Elt Ideal)) (x2 x3 : (⟨S128x64, .f32⟩ : BufTy).Contents (Elt Ideal)) (x4 : (⟨S64, .f32⟩ : BufTy).Contents (Elt Ideal)) :
    val_main_v29 (F := Ideal) x0 x1 x2 x3 x4
      = relu (rPre (srcCol x1) (dstCol x1) (cden x1) x0 x2 x3 (fun k => x4 (ix1 k))) := by
  funext i
  rw [val_main_v29_apply, v28_eq, zero_call0_v0]
  rfl

/-! ## Layer two: the same operations over the first layer's result -/

theorem v35_eq (x1 : (⟨S2x600000, .i32⟩ : BufTy).Contents (Elt Ideal)) : val_main_v35 (F := Ideal) x1 = srcCol x1 := rfl
theorem v38_eq (x1 : (⟨S2x600000, .i32⟩ : BufTy).Contents (Elt Ideal)) : val_main_v38 (F := Ideal) x1 = dstCol x1 := rfl
theorem v45_eq (x1 : (⟨S2x600000, .i32⟩ : BufTy).Contents (Elt Ideal)) : val_main_v45 (F := Ideal) x1 = val_main_v19 (F := Ideal) x1 := rfl

theorem zero_v37 (i : S100000x64.Idx) : val_main_v37 (F := Ideal) i = 0 := by
  rw [val_main_v37_apply, val_main_cst_6_apply]; exact Ideal.ofBits_zero_f32

theorem v39_at (x0 : (⟨S100000x128, .f32⟩ : BufTy).Contents (Elt Ideal)) (x1 : (⟨S2x600000, .i32⟩ : BufTy).Contents (Elt Ideal)) (x2 x3 : (⟨S128x64, .f32⟩ : BufTy).Contents (Elt Ideal)) (x4 : (⟨S64, .f32⟩ : BufTy).Contents (Elt Ideal)) (n : Fin 100000) (k : Fin 64) :
    val_main_v39 (F := Ideal) x0 x1 x2 x3 x4 (ix2 n k)
      = agg (srcCol x1) (dstCol x1) (val_main_v29 (F := Ideal) x0 x1 x2 x3 x4) (ix2 n k) := by
  unfold val_main_v39 val_main_v36
  rw [v35_eq, v38_eq]
  refine (Cert.Sage.host_scatter_gather_apply (d := 64) _ _ scatter_S100000x64_S600000x1_S600000x64_1_0_0_1_wf
    gather_S100000x64_S600000x1_S600000x64_1_0_n_n_0_1_164_wf rfl rfl (val_main_v37 (F := Ideal)) (srcCol x1) (dstCol x1)
    (val_main_v29 (F := Ideal) x0 x1 x2 x3 x4) n k).trans ?_
  rw [zero_v37, zero_add]

theorem den_v47 (x1 : (⟨S2x600000, .i32⟩ : BufTy).Contents (Elt Ideal)) (n : Fin 100000) (k : Fin 64) :
    val_main_v47 (F := Ideal) x1 (ix2 n k) = cden x1 n := by
  rw [val_main_v47_apply, val_main_v46_apply, v45_eq]
  exact congrArg (val_main_v19 (F := Ideal) x1) (funext fun a => by match a with | ⟨0, _⟩ => rfl)

theorem v48_at (x0 : (⟨S100000x128, .f32⟩ : BufTy).Contents (Elt Ideal)) (x1 : (⟨S2x600000, .i32⟩ : BufTy).Contents (Elt Ideal)) (x2 x3 : (⟨S128x64, .f32⟩ : BufTy).Contents (Elt Ideal)) (x4 : (⟨S64, .f32⟩ : BufTy).Contents (Elt Ideal)) (n : Fin 100000) (k : Fin 64) :
    val_main_v48 (F := Ideal) x0 x1 x2 x3 x4 (ix2 n k)
      = Ideal.div (agg (srcCol x1) (dstCol x1) (val_main_v29 (F := Ideal) x0 x1 x2 x3 x4) (ix2 n k)) (cden x1 n) := by
  rw [val_main_v48_apply, v39_at, den_v47]; rfl

theorem lidx49 (n : Fin 100000) (j : Fin 3) (k : Fin 64) : lidx_main_v49 (ix2 n j) k = ix2 n k :=
  funext fun a => by match a with | ⟨0, _⟩ => rfl | ⟨1, _⟩ => rfl
theorem ridx49 (n : Fin 100000) (j : Fin 3) (k : Fin 64) : ridx_main_v49 (ix2 n j) k = ix2 k j :=
  funext fun a => by match a with | ⟨0, _⟩ => rfl | ⟨1, _⟩ => rfl
theorem lidx50 (n : Fin 100000) (j : Fin 3) (k : Fin 64) : lidx_main_v50 (ix2 n j) k = ix2 n k :=
  funext fun a => by match a with | ⟨0, _⟩ => rfl | ⟨1, _⟩ => rfl
theorem ridx50 (n : Fin 100000) (j : Fin 3) (k : Fin 64) : ridx_main_v50 (ix2 n j) k = ix2 k j :=
  funext fun a => by match a with | ⟨0, _⟩ => rfl | ⟨1, _⟩ => rfl

theorem bias_v53 (x7 : (⟨S3, .f32⟩ : BufTy).Contents (Elt Ideal)) (n : Fin 100000) (j : Fin 3) :
    val_main_v53 (F := Ideal) x7 (ix2 n j) = x7 (ix1 j) := by
  rw [val_main_v53_apply, val_main_v52_apply]
  exact congrArg x7 (funext fun a => by match a with | ⟨0, _⟩ => rfl)

/-- The second layer, over the first layer's result. -/
theorem v54_eq (x0 : (⟨S100000x128, .f32⟩ : BufTy).Contents (Elt Ideal)) (x1 : (⟨S2x600000, .i32⟩ : BufTy).Contents (Elt Ideal)) (x2 x3 : (⟨S128x64, .f32⟩ : BufTy).Contents (Elt Ideal)) (x4 : (⟨S64, .f32⟩ : BufTy).Contents (Elt Ideal)) (x5 x6 : (⟨S64x3, .f32⟩ : BufTy).Contents (Elt Ideal)) (x7 : (⟨S3, .f32⟩ : BufTy).Contents (Elt Ideal)) :
    val_main_v54 (F := Ideal) x0 x1 x2 x3 x4 x5 x6 x7
      = rPre (srcCol x1) (dstCol x1) (cden x1) (val_main_v29 (F := Ideal) x0 x1 x2 x3 x4) x5 x6 (fun k => x7 (ix1 k)) := by
  funext i
  obtain ⟨n, j, rfl⟩ : ∃ (n : Fin 100000) (j : Fin 3), i = ix2 n j := ⟨i 0, i 1, eq_ix2 i⟩
  rw [val_main_v54_apply, val_main_v51_apply, val_main_v49_apply, val_main_v50_apply, bias_v53, rPre_at]
  refine congrArg₂ (· + ·) (congrArg₂ (· + ·) ?_ ?_) rfl
  · refine Finset.sum_congr rfl fun k _ => ?_
    rw [lidx49, ridx49, v48_at]
  · refine Finset.sum_congr rfl fun k _ => ?_
    rw [lidx50, ridx50]

/-! ## The log-softmax -/

/-- The source index over row `n` with column `k` put back. -/
theorem lift_row (h : S100000x3.Reduces [1] S100000) (n : Fin 100000) (k : Fin (S100000x3.size 1)) :
    h.lift (ix1 n) k = ix2 n (⟨k.val, k.isLt⟩ : Fin 3) := by
  funext c; apply Fin.ext
  fin_cases c <;> rfl

/-- The `stablehlo.reduce` with a maximum body over the three columns, from the pattern of `-∞`, is the row maximum. -/
theorem reduce_max_eq (o : Mat 100000 3) (n : Fin 100000) :
    Host.reduce (α := Ideal .f32) (s := S100000x3) (FloatOps.maximumf (F := Ideal) (φ := .f32)) o (val_main_call1_cst (F := Ideal))
        reducesTo_S100000x3_S100000_d1 h_S_ (ix1 n) = rowMax o n := by
  have h : S100000x3.Reduces [1] S100000 := by decide
  rw [Host.reduce_eq_fold_single (FloatOps.maximumf (F := Ideal) (φ := .f32)) _ _ reducesTo_S100000x3_S100000_d1 h h_S_]
  unfold rowMax
  have hf : ((o : S100000x3.Idx → EReal) ∘ h.lift (ix1 n)) = fun k : Fin 3 => o (ix2 n k) :=
    funext fun k => congrArg o (lift_row h n k)
  exact congrArg (fun f => Finset.fold max (Ideal.ofBits .f32 0xFF800000#32) f (Finset.univ : Finset (Fin 3))) hf

/-- The log-softmax at row `n` and column `j`. -/
theorem lsm_at {a : Nat} (o : Mat a 3) (n : Fin a) (j : Fin 3) :
    lsm o (ix2 n j) = (o (ix2 n j) - rowMax o n) - Ideal.log (∑ k : Fin 3, Ideal.exp (o (ix2 n k) - rowMax o n)) := rfl

section Lsm

variable (x0 : (⟨S100000x128, .f32⟩ : BufTy).Contents (Elt Ideal)) (x1 : (⟨S2x600000, .i32⟩ : BufTy).Contents (Elt Ideal)) (x2 x3 : (⟨S128x64, .f32⟩ : BufTy).Contents (Elt Ideal)) (x4 : (⟨S64, .f32⟩ : BufTy).Contents (Elt Ideal)) (x5 x6 : (⟨S64x3, .f32⟩ : BufTy).Contents (Elt Ideal)) (x7 : (⟨S3, .f32⟩ : BufTy).Contents (Elt Ideal))

/-- The second layer's result, the operand of the log-softmax. -/
local notation "O" => val_main_v54 (F := Ideal) x0 x1 x2 x3 x4 x5 x6 x7

theorem c1v0_at (n : Fin 100000) :
    val_main_call1_v0 (F := Ideal) x0 x1 x2 x3 x4 x5 x6 x7 (ix1 n) = rowMax O n := by
  unfold val_main_call1_v0
  exact reduce_max_eq O n

theorem c1v2_at (n : Fin 100000) :
    val_main_call1_v2 (F := Ideal) x0 x1 x2 x3 x4 x5 x6 x7 (ix1 n) = rowMax O n := by
  rw [val_main_call1_v2_apply, c1v0_at, val_main_call1_v1_apply, val_main_call1_cst_0_apply]
  exact max_init_rowMax O n

theorem c1v4_at (n : Fin 100000) (j : Fin 3) :
    val_main_call1_v4 (F := Ideal) x0 x1 x2 x3 x4 x5 x6 x7 (ix2 n j) = rowMax O n := by
  rw [val_main_call1_v4_apply, val_main_call1_v3_apply]
  exact (congrArg (val_main_call1_v2 (F := Ideal) x0 x1 x2 x3 x4 x5 x6 x7)
    (funext fun a => by match a with | ⟨0, _⟩ => rfl)).trans (c1v2_at x0 x1 x2 x3 x4 x5 x6 x7 n)

theorem c1v5_at (n : Fin 100000) (j : Fin 3) :
    val_main_call1_v5 (F := Ideal) x0 x1 x2 x3 x4 x5 x6 x7 (ix2 n j) = O (ix2 n j) - rowMax O n := by
  rw [val_main_call1_v5_apply, c1v4_at]; rfl

theorem idx_c1v7 (n : Fin 100000) (k : Fin 3) : idx_main_call1_v7 (ix1 n) k = ix2 n k :=
  funext fun a => by match a with | ⟨0, _⟩ => rfl | ⟨1, _⟩ => rfl

theorem c1v7_at (n : Fin 100000) :
    val_main_call1_v7 (F := Ideal) x0 x1 x2 x3 x4 x5 x6 x7 (ix1 n) = ∑ k : Fin 3, Ideal.exp (O (ix2 n k) - rowMax O n) := by
  rw [val_main_call1_v7_apply, val_main_call1_cst_1_apply]
  refine (congrArg (· + _) Ideal.ofBits_zero_f32).trans ((zero_add _).trans ?_)
  refine Finset.sum_congr rfl fun k _ => ?_
  rw [idx_c1v7, val_main_call1_v6_apply, c1v5_at]
  exact Ideal.hostUnary_exp_def _

theorem c1v10_at (n : Fin 100000) (j : Fin 3) :
    val_main_call1_v10 (F := Ideal) x0 x1 x2 x3 x4 x5 x6 x7 (ix2 n j)
      = Ideal.log (∑ k : Fin 3, Ideal.exp (O (ix2 n k) - rowMax O n)) := by
  rw [val_main_call1_v10_apply, val_main_call1_v9_apply, val_main_call1_v8_apply]
  have e : idx_main_call1_v8 (idx_main_call1_v10 (ix2 n j)) = ix1 n := funext fun a => by match a with | ⟨0, _⟩ => rfl
  rw [e, c1v7_at]
  exact Ideal.hostUnary_log_def _

/-- The last eleven operations are the log-softmax of the second layer. -/
theorem v55_eq : val_main_v55 (F := Ideal) x0 x1 x2 x3 x4 x5 x6 x7 = lsm O := by
  funext i
  obtain ⟨n, j, rfl⟩ : ∃ (n : Fin 100000) (j : Fin 3), i = ix2 n j := ⟨i 0, i 1, eq_ix2 i⟩
  rw [val_main_v55_apply, c1v5_at, c1v10_at, lsm_at]; rfl

/-- THE REFERENCE'S RESULT is the network, each layer aggregating first, over the reference's own source column,
    destination column and clamped in-degree. -/
theorem val_main_v55_eq_result :
    val_main_v55 (F := Ideal) x0 x1 x2 x3 x4 x5 x6 x7
      = Cert.Sage.result x0 (srcCol x1) (dstCol x1) (cden x1) x2 x3 (fun k => x4 (ix1 k)) x5 x6 (fun k => x7 (ix1 k)) := by
  rw [v55_eq, v54_eq, v29_eq]; rfl

end Lsm

end Cert.ReferenceIdeal.Hand

end
-- ==== Proof.RefValue.lean ====
/-
  THE REFERENCE'S RUN.  Every weakly fair execution of the reference program's @main terminates with its result buffer at
  the two-layer mean-aggregation network `Cert.Sage.result` of the arguments it was launched with — each layer
  aggregating first, which is the reference's own arrangement — over the reference's normalised source column,
  destination column and clamped in-degree (`srcCol`, `dstCol`, `cden`: terms of the edge array), and with the eight
  arguments unchanged.

  The run is the library's for a straight line of host operations (RefRunP.lean: every buffer ends at the fold of the
  operations' results); the fold is read one operation at a time down to the stage `val_main_v55` of the arguments
  (RefStages.lean); and the stage, read at an index, is the network (RefLayers.lean).
-/
import proofs.«143181_j4569845203115_2_alg».proof.Proof.RefStages
import proofs.«143181_j4569845203115_2_alg».proof.Proof.RefLayers

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

/-- On every device, from any memory with zero counters: every weakly fair execution of the reference's @main
    terminates with the result at the network of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55)
          = Cert.Sage.result (m ((c.tc : Thread nD τ).loc main_arg0)) (srcCol (m ((c.tc : Thread nD τ).loc main_arg1)))
              (dstCol (m ((c.tc : Thread nD τ).loc main_arg1))) (cden (m ((c.tc : Thread nD τ).loc main_arg1)))
              (m ((c.tc : Thread nD τ).loc main_arg2)) (m ((c.tc : Thread nD τ).loc main_arg3))
              (fun k => m ((c.tc : Thread nD τ).loc main_arg4) (ValueIdx.ix1 k))
              (m ((c.tc : Thread nD τ).loc main_arg5)) (m ((c.tc : Thread nD τ).loc main_arg6))
              (fun k => m ((c.tc : Thread nD τ).loc main_arg7) (ValueIdx.ix1 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v55).trans ((fin_main_v55 m c).trans
        (val_main_v55_eq_result (arg0 m c) (arg1 m c) (arg2 m c) (arg3 m c) (arg4 m c) (arg5 m c) (arg6 m c) (arg7 m c))),
      (h c main_arg0).trans (fin_main_arg0 m c),
      (h c main_arg1).trans (fin_main_arg1 m c),
      (h c main_arg2).trans (fin_main_arg2 m c),
      (h c main_arg3).trans (fin_main_arg3 m c),
      (h c main_arg4).trans (fin_main_arg4 m c),
      (h c main_arg5).trans (fin_main_arg5 m c),
      (h c main_arg6).trans (fin_main_arg6 m c),
      (h c main_arg7).trans (fin_main_arg7 m c)⟩)
    (run_after m ρ)

end Cert.ReferenceIdeal.Hand

end
-- ==== Proof.lean ====
/-
  A two-layer mean-aggregation graph network with a row-wise log-softmax, computed by three pallas_calls among host
  gathers and scatter-adds, against its plain reference.  Both programs produce, at node `n` and class `j`, the
  log-softmax of  (∑ over edges e into n, over k, of h(src e, k)·Wl(k, j)) / c(n) + ∑ₖ h(n, k)·Wr(k, j) + b(j)
  applied twice (`h` the features, then the rectified first layer; `c` the in-degree clamped below by one).  The kernel
  program multiplies by `Wl` BEFORE aggregating and scales by `1 / c` afterwards; the reference aggregates, divides by
  `c`, and multiplies last.  On the extended reals the two agree because every input is a real number (the
  precondition) and `c` is a nonzero real: the finite sums exchange and the constant factor moves across them
  (`Cert.Sage.kPre_eq_rPre`).  The source and destination columns and the in-degree are the same operations of the edge
  array in both programs.  The change of float format on the way into the matrix unit is the identity on the
  extended reals, so nothing is owed for `preserves` (its ledger is empty).
-/
import proofs.«143181_j4569845203115_2_alg».proof.Defs
import proofs.«143181_j4569845203115_2_alg».proof.Proof.Gen.Kernel
import proofs.«143181_j4569845203115_2_alg».proof.Proof.Gen.Kernel.Skeleton
import proofs.«143181_j4569845203115_2_alg».proof.Proof.Gen.Kernel.Launch
import proofs.«143181_j4569845203115_2_alg».proof.Proof.Gen.Kernel.Points
import proofs.«143181_j4569845203115_2_alg».proof.Proof.Gen.Kernel.Frame
import proofs.«143181_j4569845203115_2_alg».proof.Proof.Gen.KernelIdeal
import proofs.«143181_j4569845203115_2_alg».proof.Proof.Gen.KernelIdeal.Skeleton
import proofs.«143181_j4569845203115_2_alg».proof.Proof.Gen.KernelIdeal.Launch
import proofs.«143181_j4569845203115_2_alg».proof.Proof.Gen.KernelIdeal.Points
import proofs.«143181_j4569845203115_2_alg».proof.Proof.Gen.KernelIdeal.Frame
import proofs.«143181_j4569845203115_2_alg».proof.Proof.Gen.ReferenceIdeal
import proofs.«143181_j4569845203115_2_alg».proof.Proof.Gen.Pre_finite_inputs
import proofs.«143181_j4569845203115_2_alg».proof.Proof.KRun
import proofs.«143181_j4569845203115_2_alg».proof.Proof.KChain3
import proofs.«143181_j4569845203115_2_alg».proof.Proof.Finite
import proofs.«143181_j4569845203115_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The source column is the same operations of the edge array in both programs. -/
theorem srcCol_eq (x1 : (⟨Cert.KernelIdeal.S2x600000, .i32⟩ : BufTy).Contents (Elt Ideal)) :
    Cert.ReferenceIdeal.Hand.srcCol x1 = Cert.KernelIdeal.Hand.srcCol x1 := rfl
/-- So is the destination column. -/
theorem dstCol_eq (x1 : (⟨Cert.KernelIdeal.S2x600000, .i32⟩ : BufTy).Contents (Elt Ideal)) :
    Cert.ReferenceIdeal.Hand.dstCol x1 = Cert.KernelIdeal.Hand.dstCol x1 := rfl
/-- So is the clamped in-degree. -/
theorem cden_eq (x1 : (⟨Cert.KernelIdeal.S2x600000, .i32⟩ : BufTy).Contents (Elt Ideal)) :
    Cert.ReferenceIdeal.Hand.cden x1 = Cert.KernelIdeal.Hand.cden x1 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- Both programs end with the network's value at the arguments: the kernel program's arrangement (project, aggregate,
    scale) is the reference's (aggregate, divide, project) on real inputs. -/
theorem algebraic : Cert.algebraic_KernelIdeal_ReferenceIdeal := by
  intro m ρ m' ρ' hpre hagree
  refine ⟨fun c => Cert.Sage.result (m ((c.tc : Thread Cert.KernelIdeal.nD Cert.KernelIdeal.τ).loc Cert.KernelIdeal.main_arg0)) (Cert.KernelIdeal.Hand.srcCol (m ((c.tc : Thread Cert.KernelIdeal.nD Cert.KernelIdeal.τ).loc Cert.KernelIdeal.main_arg1))) (Cert.KernelIdeal.Hand.dstCol (m ((c.tc : Thread Cert.KernelIdeal.nD Cert.KernelIdeal.τ).loc Cert.KernelIdeal.main_arg1)))
      (Cert.KernelIdeal.Hand.cden (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (fun k => (m ((c.tc : Thread Cert.KernelIdeal.nD Cert.KernelIdeal.τ).loc Cert.KernelIdeal.main_arg4)) (ix1 k)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (fun k => (m ((c.tc : Thread Cert.KernelIdeal.nD Cert.KernelIdeal.τ).loc Cert.KernelIdeal.main_arg7)) (ix1 k)), ?_, ?_⟩
  · refine (θ_run Cert.KernelIdeal.defs _ _).mono (fun r h c => ⟨(h c).1.trans ?_, (h c).2⟩)
      (Cert.KernelIdeal.Gen.run_result m ρ)
    obtain ⟨h0, h2, h3, h4, h5, h6, h7⟩ := Cert.Finite.inputs_real _ _ _ _ _ _ _ _ (hpre c)
    refine (Cert.KernelIdeal.Hand.result_value m ρ c).trans ?_
    exact Cert.Sage.kernel_arrangement_eq _ _ _ _ _ _ _ _ _ _ h0 h2 h3 (fun k => h4 _) h5
      (fun n => Cert.KernelIdeal.Hand.cden_isNZReal _ n)
  · refine (θ_run Cert.ReferenceIdeal.defs _ _).mono (fun r h c => ⟨(h c).1.trans ?_, (h c).2⟩)
      (Cert.ReferenceIdeal.Hand.run m' ρ')
    obtain ⟨a0, a1, a2, a3, a4, a5, a6, a7⟩ := hagree c
    rw [a0, a1, a2, a3, a4, a5, a6, a7, srcCol_eq, dstCol_eq, cden_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
